-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg11 : FVec F S128x128 .f32) (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg11
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg7 : FVec F S128x256 .f32) (main_arg8 : FVec F S128 .f32) (main_arg9 : FVec F S128x256 .f32) (main_arg10 : FVec F S128 .f32) (main_arg11 : FVec F S128x128 .f32) (main_arg12 : FVec F S128 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x256 .f32 := Host.absf main_arg9
  let main_cst_16 : FVec F S_ .f32 := constant S_ .f32 0x7F800000#32
  let main_v45 : FVec F S128x256 .f32 := broadcastInDim S128x256 ![] bcast_S_S128x256 main_cst_16
  let main_v46 : IVec S128x256 1 := cmpf .olt main_v44 main_v45
  let main_c_17 : IVec S_ 1 := constantI S_ 1 1#1
  let main_v47 : IVec S_ 1 := (fun x v => Host.reduce IntOp.andi x v reducesTo_S128x256_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S131072x128 .f32) (main_arg1 : FVec F S131072x128 .f32) (main_arg2 : FVec F S131072x128 .f32) (main_arg3 : FVec F S128x256 .f32) (main_arg4 : FVec F S128 .f32) (main_arg5 : FVec F S128x256 .f32) (main_arg6 : FVec F S128 .f32) (main_arg7 : FVec F S128x256 .f32) (main_arg8 : FVec F S128 .f32) (main_arg9 : FVec F S128x256 .f32) (main_arg10 : FVec F S128 .f32) (main_arg11 : FVec F S128x128 .f32) (main_arg12 : FVec F S128 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S131072x128 .f32 := Host.absf main_arg1
  let main_cst_0 : FVec F S_ .f32 := constant S_ .f32 0x7F800000#32
  let main_v5 : FVec F S131072x128 .f32 := broadcastInDim S131072x128 ![] bcast_S_S131072x128 main_cst_0
  let main_v6 : IVec S131072x128 1 := cmpf .olt main_v4 main_v5
  let main_c_1 : IVec S_ 1 := constantI S_ 1 1#1
  let main_v7 : IVec S_ 1 := (fun x v => Host.reduce IntOp.andi x v reducesTo_S131072x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_arg5 main_arg6 main_arg7 main_arg8 main_arg9 main_arg10 main_arg11 main_arg12 main_v13 main_v16
-- ==== Kernel.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S512x256 : Shape := ⟨2, ![512, 256]⟩
abbrev S512 : Shape := ⟨1, ![512]⟩
abbrev S256x512 : Shape := ⟨2, ![256, 512]⟩
abbrev S128x512 : Shape := ⟨2, ![128, 512]⟩
abbrev S1x512 : Shape := ⟨2, ![1, 512]⟩
abbrev S1x128 : Shape := ⟨2, ![1, 128]⟩
abbrev S2048x128 : Shape := ⟨2, ![2048, 128]⟩
abbrev S2048x512 : Shape := ⟨2, ![2048, 512]⟩

abbrev nBuf : Space → Nat
  | .hbm => 27
  | .vmem => 17
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S512x256, .f32⟩
  | .hbm, ⟨14, _⟩ => ⟨S512, .f32⟩
  | .hbm, ⟨15, _⟩ => ⟨S256x512, .f32⟩
  | .hbm, ⟨16, _⟩ => ⟨S128x512, .f32⟩
  | .hbm, ⟨17, _⟩ => ⟨S128x512, .bf16⟩
  | .hbm, ⟨18, _⟩ => ⟨S128x512, .f32⟩
  | .hbm, ⟨19, _⟩ => ⟨S128x512, .bf16⟩
  | .hbm, ⟨20, _⟩ => ⟨S128x128, .f32⟩
  | .hbm, ⟨21, _⟩ => ⟨S128x128, .bf16⟩
  | .hbm, ⟨22, _⟩ => ⟨S1x512, .f32⟩
  | .hbm, ⟨23, _⟩ => ⟨S1x128, .f32⟩
  | .hbm, ⟨24, _⟩ => ⟨S131072x128, .f32⟩
  | .hbm, ⟨25, _⟩ => ⟨S131072x128, .f32⟩
  | .hbm, ⟨26, _⟩ => ⟨S131072x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x512, .bf16⟩
  | .local _ .vmem, ⟨7, _⟩ => ⟨S128x512, .bf16⟩
  | .local _ .vmem, ⟨8, _⟩ => ⟨S1x512, .f32⟩
  | .local _ .vmem, ⟨9, _⟩ => ⟨S128x128, .bf16⟩
  | .local _ .vmem, ⟨10, _⟩ => ⟨S1x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  slices_S256x512_S128x512_0_0 : S256x512.Slices ![0, 0] S128x512
  bitsLt_bf16_f32 : FTy.bits .bf16 < FTy.bits .f32
  slices_S256x512_S128x512_128_0 : S256x512.Slices ![128, 0] S128x512
  transposes_S128x128_S128x128_1_0 : S128x128.Transposes [1, 0] S128x128
  shapeCasts_S512_S1x512 : S512.ShapeCasts S1x512
  shapeCasts_S128_S1x128 : S128.ShapeCasts S1x128
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  dot_S2048x128_S128x512_S2048x512_1_0_0_1_n_n_wf : DotDims.WF S2048x128 S128x512 S2048x512 [1] [0] [0] [1] [] []
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S131072x128.size a
  hwx0_0 : ∀ i : grid0.Coords, EltTy.bits .f32 = 32 ∨ (Rect.block (s := S131072x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S131072x128.size a
  hwx0_1 : ∀ i : grid0.Coords, EltTy.bits .f32 = 32 ∨ (Rect.block (s := S131072x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .bf16 = 32 ∨ (Rect.block (s := S128x512) S128x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .bf16 = 32 ∨ (Rect.block (s := S128x512) S128x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x128.size a ≤ S131072x128.size a
  hwx0_8 : ∀ i : grid0.Coords, EltTy.bits .f32 = 32 ∨ (Rect.block (s := S131072x128) S2048x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x128.size a ≤ S131072x128.size a
  hwx0_9 : ∀ i : grid0.Coords, EltTy.bits .f32 = 32 ∨ (Rect.block (s := S131072x128) S2048x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x128.size a ≤ S131072x128.size a
  hwx0_10 : ∀ i : grid0.Coords, EltTy.bits .f32 = 32 ∨ (Rect.block (s := S131072x128) S2048x128.size (cc0_transform_10 i) (hinb0_10 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S2048x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S2048x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_2) S2048x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S131072x128 : Shape := ⟨2, ![131072, 128]⟩
abbrev S128x256 : Shape := ⟨2, ![128, 256]⟩
abbrev S128 : Shape := ⟨1, ![128]⟩
abbrev S128x128 : Shape := ⟨2, ![128, 128]⟩
abbrev S131072x256 : Shape := ⟨2, ![131072, 256]⟩
abbrev S512x256 : Shape := ⟨2, ![512, 256]⟩
abbrev S512 : Shape := ⟨1, ![512]⟩
abbrev S256x512 : Shape := ⟨2, ![256, 512]⟩
abbrev S131072x512 : Shape := ⟨2, ![131072, 512]⟩
abbrev S1x512 : Shape := ⟨2, ![1, 512]⟩
abbrev S_ : Shape := ⟨0, ![]⟩
abbrev S1x128 : Shape := ⟨2, ![1, 128]⟩

abbrev nBuf : Space → Nat
  | .hbm => 60
  | .vmem => 0
  | .smem => 0
  | _ => 0

abbrev bufTy : (tb : Table) → Fin (tcTables nBuf tb) → BufTy
  | .hbm, ⟨0, _⟩ => ⟨S131072x128, .f32⟩
  | .hbm, ⟨1, _⟩ => ⟨S131072x128, .f32⟩
  | .hbm, ⟨2, _⟩ => ⟨S131072x128, .f32⟩
  | .hbm, ⟨3, _⟩ => ⟨S128x256, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x256, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S131072x256, .f32⟩
  | .hbm, ⟨14, _⟩ => ⟨S512x256, .f32⟩
  | .hbm, ⟨15, _⟩ => ⟨S512, .f32⟩
  | .hbm, ⟨16, _⟩ => ⟨S256x512, .f32⟩
  | .hbm, ⟨17, _⟩ => ⟨S131072x512, .f32⟩
  | .hbm, ⟨18, _⟩ => ⟨S1x512, .f32⟩
  | .hbm, ⟨19, _⟩ => ⟨S131072x512, .f32⟩
  | .hbm, ⟨20, _⟩ => ⟨S131072x512, .f32⟩
  | .hbm, ⟨21, _⟩ => ⟨S131072x128, .f32⟩
  | .hbm, ⟨22, _⟩ => ⟨S131072x128, .f32⟩
  | .hbm, ⟨23, _⟩ => ⟨S131072x128, .f32⟩
  | .hbm, ⟨24, _⟩ => ⟨S131072x128, .f32⟩
  | .hbm, ⟨25, _⟩ => ⟨S131072x128, .f32⟩
  | .hbm, ⟨26, _⟩ => ⟨S131072x128, .f32⟩
  | .hbm, ⟨27, _⟩ => ⟨S_, .f32⟩
  | .hbm, ⟨28, _⟩ => ⟨S131072x128, .f32⟩
  | .hbm, ⟨29, _⟩ => ⟨S131072x128, .f32⟩
  | .hbm, ⟨30, _⟩ => ⟨S_, .f32⟩
  | .hbm, ⟨31, _⟩ => ⟨S131072x128, .f32⟩
  | .hbm, ⟨32, _⟩ => ⟨S131072x128, .f32⟩
  | .hbm, ⟨33, _⟩ => ⟨S131072x128, .f32⟩
  | .hbm, ⟨34, _⟩ => ⟨S131072x128, .f32⟩
  | .hbm, ⟨35, _⟩ => ⟨S_, .f32⟩
  | .hbm, ⟨36, _⟩ => ⟨S131072x128, .f32⟩
  | .hbm, ⟨37, _⟩ => ⟨S131072x128, .f32⟩
  | .hbm, ⟨38, _⟩ => ⟨S_, .f32⟩
  | .hbm, ⟨39, _⟩ => ⟨S131072x128, .f32⟩
  | .hbm, ⟨40, _⟩ => ⟨S131072x128, .f32⟩
  | .hbm, ⟨41, _⟩ => ⟨S131072x128, .f32⟩
  | .hbm, ⟨42, _⟩ => ⟨S131072x128, .f32⟩
  | .hbm, ⟨43, _⟩ => ⟨S_, .f32⟩
  | .hbm, ⟨44, _⟩ => ⟨S131072x128, .f32⟩
  | .hbm, ⟨45, _⟩ => ⟨S131072x128, .f32⟩
  | .hbm, ⟨46, _⟩ => ⟨S_, .f32⟩
  | .hbm, ⟨47, _⟩ => ⟨S131072x128, .f32⟩
  | .hbm, ⟨48, _⟩ => ⟨S131072x128, .f32⟩
  | .hbm, ⟨49, _⟩ => ⟨S131072x128, .f32⟩
  | .hbm, ⟨50, _⟩ => ⟨S131072x128, .f32⟩
  | .hbm, ⟨51, _⟩ => ⟨S131072x128, .f32⟩
  | .hbm, ⟨52, _⟩ => ⟨S131072x128, .f32⟩
  | .hbm, ⟨53, _⟩ => ⟨S131072x128, .f32⟩
  | .hbm, ⟨54, _⟩ => ⟨S131072x128, .f32⟩
  | .hbm, ⟨55, _⟩ => ⟨S128x128, .f32⟩
  | .hbm, ⟨56, _⟩ => ⟨S131072x128, .f32⟩
  | .hbm, ⟨57, _⟩ => ⟨S1x128, .f32⟩
  | .hbm, ⟨58, _⟩ => ⟨S131072x128, .f32⟩
  | .hbm, ⟨59, _⟩ => ⟨S131072x128, .f32⟩
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_cst_4 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  concatenates_S131072x128_S131072x128_S131072x256_d1 : Shape.Concatenates [S131072x128, S131072x128] S131072x256 1
  concatenates_S128x256_S128x256_S128x256_S128x256_S512x256_d0 : Shape.Concatenates [S128x256, S128x256, S128x256, S128x256] S512x256 0
  concatenates_S128_S128_S128_S128_S512_d0 : Shape.Concatenates [S128, S128, S128, S128] S512 0
  transposes_S512x256_S256x512_1_0 : S512x256.Transposes [1, 0] S256x512
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  slices_S131072x512_S131072x128_0_0 : S131072x512.Slices ![0, 0] S131072x128
  slices_S131072x512_S131072x128_0_128 : S131072x512.Slices ![0, 128] S131072x128
  slices_S131072x512_S131072x128_0_256 : S131072x512.Slices ![0, 256] S131072x128
  slices_S131072x512_S131072x128_0_384 : S131072x512.Slices ![0, 384] S131072x128
  bcast_S_S131072x128 : S_.BroadcastsInDim S131072x128 (![] : Fin 0 → Fin S131072x128.rank)
  transposes_S128x128_S128x128_1_0 : S128x128.Transposes [1, 0] S128x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  dot_S131072x256_S256x512_S131072x512_1_0_0_1_n_n_wf : DotDims.WF S131072x256 S256x512 S131072x512 [1] [0] [0] [1] [] []
  dot_S131072x128_S128x128_S131072x128_1_0_0_1_n_n_wf : DotDims.WF S131072x128 S128x128 S131072x128 [1] [0] [0] [1] [] []

variable [Facts₀]

def dot_S131072x256_S256x512_S131072x512_1_0_0_1_n_n : DotDims S131072x256 S256x512 S131072x512 where
  lhsContracting := [1]
  rhsContracting := [0]
  lhsNonContracting := [0]
  rhsNonContracting := [1]
  lhsBatch := []
  rhsBatch := []
  wf := dot_S131072x256_S256x512_S131072x512_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf

class Facts : Prop extends Facts₀ where

variable [Facts]
-- ==== Proof.FrameKernel.lean ====
/-
  The frame of the LSTM-cell program `Kernel`: every weakly fair execution of @main terminates, nothing faults,
  and the thirteen argument arrays end as they were launched — for any float instance.

  @main is eleven host lines (the four gate matrices stacked and transposed, its two halves cut out and narrowed,
  the four gate biases stacked and laid out as a row, the output matrix transposed and narrowed, the output bias as
  a row) followed by one pipelined region over 64 blocks of 2048 batch rows. None of the host lines writes an
  argument, so the region finds the arguments as launched (`V_main_arg…`). The region's body loads its eight input
  blocks whole, computes, and overwrites each of its three output blocks whole with one store; it keeps nothing
  between grid points. So the pipeline's proof data is plain: after the body each input's staging buffer still holds
  its block, each output's holds the stored value as a function of the eight input blocks (`outY`, `outH`, `outC`),
  and the invariant is the class's (the scoped rest and the generator register, untouched). The run is the
  general frame theorem for pipelined regions applied to that data.
-/
import proofs.«121577_j57844619543162_2_alg».proof.Proof.Gen.Kernel.Launch
import proofs.«121577_j57844619543162_2_alg».proof.Proof.Gen.Kernel.Skeleton
import proofs.«121577_j57844619543162_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Cell

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eleven host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is
    not fetched its block index has not moved. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state of the frame run the thirteen arguments are as launched: the three batch arrays are staged
    inputs and end at their entry contents, the other ten bypass the region; each entry content is the launch
    content (`V_main_arg…`). -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩

/-- The frame claim's post from the frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_args m dats hA r h c) h

/-! ## The body's accesses: every load and store moves a whole block -/

abbrev rRows : Rect S2048x128 := Rect.unit (s := S2048x128) ![0, 0] S2048x128.size inb_S2048x128_S2048x128_0_0
abbrev rGates : Rect S128x512 := Rect.unit (s := S128x512) ![0, 0] S128x512.size inb_S128x512_S128x512_0_0
abbrev rBias : Rect S1x512 := Rect.unit (s := S1x512) ![0, 0] S1x512.size inb_S1x512_S1x512_0_0
abbrev rOut : Rect S128x128 := Rect.unit (s := S128x128) ![0, 0] S128x128.size inb_S128x128_S128x128_0_0
abbrev rOutBias : Rect S1x128 := Rect.unit (s := S1x128) ![0, 0] S1x128.size inb_S1x128_S1x128_0_0

/-! ## What the body leaves in each output window's buffer -/

/-- The output block after the body: the one store of the output layer's value. -/
def outY (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) : Vec F S2048x128 .f32 :=
  View.canon [⟨rRows, k0_pay4 (View.ld x0 rRows) (View.ld x1 rRows) (View.ld x2 rRows) (View.ld x3 rGates) (View.ld x4 rGates) (View.ld x5 rBias) (View.ld x6 rOut) (View.ld x7 rOutBias)⟩]
/-- The new hidden state's block after the body. -/
def outH (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) : Vec F S2048x128 .f32 :=
  View.canon [⟨rRows, k0_pay3 (View.ld x0 rRows) (View.ld x1 rRows) (View.ld x2 rRows) (View.ld x3 rGates) (View.ld x4 rGates) (View.ld x5 rBias)⟩]
/-- The new cell state's block after the body. -/
def outC (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) : Vec F S2048x128 .f32 :=
  View.canon [⟨rRows, k0_pay2 (View.ld x0 rRows) (View.ld x1 rRows) (View.ld x2 rRows) (View.ld x3 rGates) (View.ld x4 rGates) (View.ld x5 rBias)⟩]

/-- One whole-block store covers the block. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 4000000 in
/-- The body on whole staging memrefs, the inputs' at contents `x0 … x7` and the outputs' at anything, runs to the
    continuation holding the inputs' as they were and the outputs' at `outY`, `outH`, `outC` of the inputs'. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
    (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outY x0 x1 x2 x3 x4 x5 x6 x7) ∗ owns (c : Thread nD τ) arg10 fullShare (outH x0 x1 x2 x3 x4 x5 x6 x7) ∗ owns (c : Thread nD τ) arg11 fullShare (outC x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_rows _)
  isplitl [H9]
  · iexists _; isplitr
    swap; · iexact H9
    ipureintro
    try dsimp only
    exact View.read_writes_eq_canon _ _ _ (cover_rows _)
  iexists _; isplitr
  swap; · iexact H10
  ipureintro
  try dsimp only
  exact View.read_writes_eq_canon _ _ _ (cover_rows _)

/-! ## The pipeline's proof data -/

/-- On core `c`: the arrays as the region finds them; after the body at point `t` each input's buffer at its block
    and each output's at its function of the eight input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (iblk m c 0 t) (iblk m c 1 t) (iblk m c 2 t) (iblk m c 3 t) (iblk m c 4 t) (iblk m c 5 t) (iblk m c 6 t) (iblk m c 7 t)
    | ⟨9, _⟩ => outH (iblk m c 0 t) (iblk m c 1 t) (iblk m c 2 t) (iblk m c 3 t) (iblk m c 4 t) (iblk m c 5 t) (iblk m c 6 t) (iblk m c 7 t)
    | ⟨10, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (by projection: the host prefix is never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_outY (c : Dev nD) (t : Fin cfg0.N) : (dats m 0 c).after 8 t = outY (iblk m c 0 t) (iblk m c 1 t) (iblk m c 2 t) (iblk m c 3 t) (iblk m c 4 t) (iblk m c 5 t) (iblk m c 6 t) (iblk m c 7 t) := by dsimp only [dats]
theorem after_outH (c : Dev nD) (t : Fin cfg0.N) : (dats m 0 c).after 9 t = outH (iblk m c 0 t) (iblk m c 1 t) (iblk m c 2 t) (iblk m c 3 t) (iblk m c 4 t) (iblk m c 5 t) (iblk m c 6 t) (iblk m c 7 t) := by dsimp only [dats]
theorem after_outC (c : Dev nD) (t : Fin cfg0.N) : (dats m 0 c).after 10 t = outC (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so `sound_kernel` applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_outY, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the frame theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has every array of the pipeline at what the
    write-backs make of the proof data, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Cell

end
-- ==== Proof.FrameKernelIdeal.lean ====
/-
  The frame of the LSTM-cell program `KernelIdeal`: every weakly fair execution of @main terminates, nothing faults,
  and the thirteen argument arrays end as they were launched — for any float instance.

  @main is eleven host lines (the four gate matrices stacked and transposed, its two halves cut out and narrowed,
  the four gate biases stacked and laid out as a row, the output matrix transposed and narrowed, the output bias as
  a row) followed by one pipelined region over 64 blocks of 2048 batch rows. None of the host lines writes an
  argument, so the region finds the arguments as launched (`V_main_arg…`). The region's body loads its eight input
  blocks whole, computes, and overwrites each of its three output blocks whole with one store; it keeps nothing
  between grid points. So the pipeline's proof data is plain: after the body each input's staging buffer still holds
  its block, each output's holds the stored value as a function of the eight input blocks (`outY`, `outH`, `outC`),
  and the invariant is the class's (the scoped rest and the generator register, untouched). The run is the
  general frame theorem for pipelined regions applied to that data.
-/
import proofs.«121577_j57844619543162_2_alg».proof.Proof.Gen.KernelIdeal.Launch
import proofs.«121577_j57844619543162_2_alg».proof.Proof.Gen.KernelIdeal.Skeleton
import proofs.«121577_j57844619543162_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Cell

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch contents after the eleven host lines. -/
abbrev V (c : Dev nD) (b : Ref sig .tc) : Buf (Elt F) ((c : Thread nD τ).loc b) :=
  StableHlo.after hostOps0 (fun b => m (c, b)) b

/-- No host line allocates. -/
theorem hostOps0_fresh : (hostOps0 : List (HloOp τ sig (Elt F))).Forall fun op => op.fresh = ∅ := by
  simp only [List.Forall]; repeat' constructor

/-- @main is the host lines, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))
/-- No host line writes argument 12. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.unary_writes, StableHlo.reshape_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched its block index has not moved. -/
theorem before_in0 {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not: where it is
    not fetched its block index has not moved. -/
theorem before_in1 {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not: where it is
    not fetched its block index has not moved. -/
theorem before_in2 {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not: where it is
    not fetched its block index has not moved. -/
theorem before_in3 {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not: where it is
    not fetched its block index has not moved. -/
theorem before_in4 {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not: where it is
    not fetched its block index has not moved. -/
theorem before_in5 {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not: where it is
    not fetched its block index has not moved. -/
theorem before_in6 {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not: where it is
    not fetched its block index has not moved. -/
theorem before_in7 {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- In a final state of the frame run the thirteen arguments are as launched: the three batch arrays are staged
    inputs and end at their entry contents, the other ten bypass the region; each entry content is the launch
    content (`V_main_arg…`). -/
theorem kept_args (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c)⟩

/-- The frame claim's post from the frame run's. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => kept_args m dats hA r h c) h

/-! ## The body's accesses: every load and store moves a whole block -/

abbrev rRows : Rect S2048x128 := Rect.unit (s := S2048x128) ![0, 0] S2048x128.size inb_S2048x128_S2048x128_0_0
abbrev rGates : Rect S128x512 := Rect.unit (s := S128x512) ![0, 0] S128x512.size inb_S128x512_S128x512_0_0
abbrev rBias : Rect S1x512 := Rect.unit (s := S1x512) ![0, 0] S1x512.size inb_S1x512_S1x512_0_0
abbrev rOut : Rect S128x128 := Rect.unit (s := S128x128) ![0, 0] S128x128.size inb_S128x128_S128x128_0_0
abbrev rOutBias : Rect S1x128 := Rect.unit (s := S1x128) ![0, 0] S1x128.size inb_S1x128_S1x128_0_0

/-! ## What the body leaves in each output window's buffer -/

/-- The output block after the body: the one store of the output layer's value. -/
def outY (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) : Vec F S2048x128 .f32 :=
  View.canon [⟨rRows, k0_pay4 (View.ld x0 rRows) (View.ld x1 rRows) (View.ld x2 rRows) (View.ld x3 rGates) (View.ld x4 rGates) (View.ld x5 rBias) (View.ld x6 rOut) (View.ld x7 rOutBias)⟩]
/-- The new hidden state's block after the body. -/
def outH (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) : Vec F S2048x128 .f32 :=
  View.canon [⟨rRows, k0_pay3 (View.ld x0 rRows) (View.ld x1 rRows) (View.ld x2 rRows) (View.ld x3 rGates) (View.ld x4 rGates) (View.ld x5 rBias)⟩]
/-- The new cell state's block after the body. -/
def outC (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) : Vec F S2048x128 .f32 :=
  View.canon [⟨rRows, k0_pay2 (View.ld x0 rRows) (View.ld x1 rRows) (View.ld x2 rRows) (View.ld x3 rGates) (View.ld x4 rGates) (View.ld x5 rBias)⟩]

/-- One whole-block store covers the block. -/
theorem cover_rows (p0 : Vec F S2048x128 .f32) (y : S2048x128.Idx) :
    ∃ pc ∈ ([⟨rRows, p0⟩] : List (View.Piece (Elt F) S2048x128 .f32)), y ∈ pc.1.set :=
  View.cover_of_tiled [⟨rRows, p0⟩] S2048x128.size (by rfl) y

/-! ## The body's triple -/

set_option maxHeartbeats 4000000 in
/-- The body on whole staging memrefs, the inputs' at contents `x0 … x7` and the outputs' at anything, runs to the
    continuation holding the inputs' as they were and the outputs' at `outY`, `outH`, `outC` of the inputs'. -/
theorem sound_kernel (c : Dev nD) (E : Set ℕ) (i : grid0.Coords) (arg1 : Memref sig .tc .vmem S2048x128 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S128x512 .bf16) (harg4 : arg4.IsWhole) (arg5 : Memref sig .tc .vmem S128x512 .bf16) (harg5 : arg5.IsWhole) (arg6 : Memref sig .tc .vmem S1x512 .f32) (harg6 : arg6.IsWhole) (arg7 : Memref sig .tc .vmem S128x128 .bf16) (harg7 : arg7.IsWhole) (arg8 : Memref sig .tc .vmem S1x128 .f32) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .f32) (harg11 : arg11.IsWhole)
    (x0 : Vec F S2048x128 .f32) (x1 : Vec F S2048x128 .f32) (x2 : Vec F S2048x128 .f32) (x3 : Vec F S128x512 .bf16) (x4 : Vec F S128x512 .bf16) (x5 : Vec F S1x512 .f32) (x6 : Vec F S128x128 .bf16) (x7 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
        ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (outY x0 x1 x2 x3 x4 x5 x6 x7) ∗ owns (c : Thread nD τ) arg10 fullShare (outH x0 x1 x2 x3 x4 x5 x6 x7) ∗ owns (c : Thread nD τ) arg11 fullShare (outC x0 x1 x2 x3 x4 x5 x6 x7)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10 arg11 harg11) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    try dsimp only
    exact View.read_writes_eq_canon _ _ _ (cover_rows _)
  isplitl [H9]
  · iexists _; isplitr
    swap; · iexact H9
    ipureintro
    try dsimp only
    exact View.read_writes_eq_canon _ _ _ (cover_rows _)
  iexists _; isplitr
  swap; · iexact H10
  ipureintro
  try dsimp only
  exact View.read_writes_eq_canon _ _ _ (cover_rows _)

/-! ## The pipeline's proof data -/

/-- On core `c`: the arrays as the region finds them; after the body at point `t` each input's buffer at its block
    and each output's at its function of the eight input blocks; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outY (iblk m c 0 t) (iblk m c 1 t) (iblk m c 2 t) (iblk m c 3 t) (iblk m c 4 t) (iblk m c 5 t) (iblk m c 6 t) (iblk m c 7 t)
    | ⟨9, _⟩ => outH (iblk m c 0 t) (iblk m c 1 t) (iblk m c 2 t) (iblk m c 3 t) (iblk m c 4 t) (iblk m c 5 t) (iblk m c 6 t) (iblk m c 7 t)
    | ⟨10, _⟩ => outC (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

/-- The proof data's arrays are the region-entry contents (by projection: the host prefix is never unfolded). -/
theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_in7 (c : Dev nD) (t : Fin cfg0.N) : (dats m 0 c).after 7 t = iblk m c 7 t := by dsimp only [dats]
theorem after_outY (c : Dev nD) (t : Fin cfg0.N) : (dats m 0 c).after 8 t = outY (iblk m c 0 t) (iblk m c 1 t) (iblk m c 2 t) (iblk m c 3 t) (iblk m c 4 t) (iblk m c 5 t) (iblk m c 6 t) (iblk m c 7 t) := by dsimp only [dats]
theorem after_outH (c : Dev nD) (t : Fin cfg0.N) : (dats m 0 c).after 9 t = outH (iblk m c 0 t) (iblk m c 1 t) (iblk m c 2 t) (iblk m c 3 t) (iblk m c 4 t) (iblk m c 5 t) (iblk m c 6 t) (iblk m c 7 t) := by dsimp only [dats]
theorem after_outC (c : Dev nD) (t : Fin cfg0.N) : (dats m 0 c).after 10 t = outC (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0 m (dats m 0 c) (A_eq m c 0) (after_in0 m c) t d
theorem before1 (c : Dev nD) (t : Fin cfg0.N) (d) : (dats m 0 c).before 1 t d = iblk m c 1 t :=
  before_in1 m (dats m 0 c) (A_eq m c 1) (after_in1 m c) t d
theorem before2 (c : Dev nD) (t : Fin cfg0.N) (d) : (dats m 0 c).before 2 t d = iblk m c 2 t :=
  before_in2 m (dats m 0 c) (A_eq m c 2) (after_in2 m c) t d
theorem before3 (c : Dev nD) (t : Fin cfg0.N) (d) : (dats m 0 c).before 3 t d = iblk m c 3 t :=
  before_in3 m (dats m 0 c) (A_eq m c 3) (after_in3 m c) t d
theorem before4 (c : Dev nD) (t : Fin cfg0.N) (d) : (dats m 0 c).before 4 t d = iblk m c 4 t :=
  before_in4 m (dats m 0 c) (A_eq m c 4) (after_in4 m c) t d
theorem before5 (c : Dev nD) (t : Fin cfg0.N) (d) : (dats m 0 c).before 5 t d = iblk m c 5 t :=
  before_in5 m (dats m 0 c) (A_eq m c 5) (after_in5 m c) t d
theorem before6 (c : Dev nD) (t : Fin cfg0.N) (d) : (dats m 0 c).before 6 t d = iblk m c 6 t :=
  before_in6 m (dats m 0 c) (A_eq m c 6) (after_in6 m c) t d
theorem before7 (c : Dev nD) (t : Fin cfg0.N) (d) : (dats m 0 c).before 7 t d = iblk m c 7 t :=
  before_in7 m (dats m 0 c) (A_eq m c 7) (after_in7 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 1000000 in
/-- The body at any point: the inputs' memrefs hold their blocks, so `sound_kernel` applies; the invariant and the core's
    dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_outY, after_outH, after_outC]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body obligation of the frame theorem, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every final state has every array of the pipeline at what the
    write-backs make of the proof data, and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs and its argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Cell

end
-- ==== Proof.EntryWeights.lean ====
/-
  What the region finds in the five weight arrays its windows stage, at the ideal instance.

  The host lines before the region stack the four gate matrices (each 128 × 256) into one 512 × 256 matrix and
  transpose it: `stackedT`, 256 × 512. Its rows 0–127 multiply the input, its rows 128–255 the hidden state; the
  two halves are cut out and narrowed to bf16, which changes nothing on extended reals. The four gate biases are
  stacked into one vector of 512 entries (`stackedBias`) and laid out as one row; the output matrix is transposed
  (`outT`) and narrowed; the output bias is laid out as one row. Read at an index:

    main_v4 (k, n) = stackedT (k, n)          main_v6 (k, n) = stackedT (128 + k, n)
    main_v9 (0, n) = stackedBias n            main_v8 (k, o) = outT (k, o)           main_v10 (0, o) = b_y o.
-/
import proofs.«121577_j57844619543162_2_alg».proof.Proof.FrameKernelIdeal
import Idealize.ShloMosaic.Lib.StableHlo.Run
import Idealize.ShloMosaic.Lib.Pipeline.Value
import Idealize.ShloMosaic.Lib.ValueIdx

noncomputable section

namespace Cert.KernelIdeal.CellValue

open Cert.KernelIdeal Cert.KernelIdeal.Gen Cert.KernelIdeal.Cell
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-- The four gate matrices stacked along the rows, transposed: 256 × 512. -/
def stackedT : FVec Ideal S256x512 .f32 :=
  transpose S256x512 [1, 0] (concatenate S512x256 0 [⟨S128x256, m ((c : Thread nD τ).loc main_arg3)⟩, ⟨S128x256, m ((c : Thread nD τ).loc main_arg5)⟩, ⟨S128x256, m ((c : Thread nD τ).loc main_arg7)⟩, ⟨S128x256, m ((c : Thread nD τ).loc main_arg9)⟩] concatenates_S128x256_S128x256_S128x256_S128x256_S512x256_d0) transposes_S512x256_S256x512_1_0

/-- The four gate biases stacked: 512 entries. -/
def stackedBias : FVec Ideal S512 .f32 :=
  concatenate S512 0 [⟨S128, m ((c : Thread nD τ).loc main_arg4)⟩, ⟨S128, m ((c : Thread nD τ).loc main_arg6)⟩, ⟨S128, m ((c : Thread nD τ).loc main_arg8)⟩, ⟨S128, m ((c : Thread nD τ).loc main_arg10)⟩] concatenates_S128_S128_S128_S128_S512_d0

/-- The output matrix transposed. -/
def outT : FVec Ideal S128x128 .f32 :=
  transpose S128x128 [1, 0] (m ((c : Thread nD τ).loc main_arg11)) transposes_S128x128_S128x128_1_0

theorem entry_v4 : (V m c main_v4 : FVec Ideal S128x512 .bf16)
    = truncf .bf16 (extractStridedSlice S128x512 ![0, 0] (stackedT m c) slices_S256x512_S128x512_0_0) bitsLt_bf16_f32 := by
  dsimp only [V, hostOps0]; after_results; rfl

theorem entry_v6 : (V m c main_v6 : FVec Ideal S128x512 .bf16)
    = truncf .bf16 (extractStridedSlice S128x512 ![128, 0] (stackedT m c) slices_S256x512_S128x512_128_0) bitsLt_bf16_f32 := by
  dsimp only [V, hostOps0]; after_results; rfl

theorem entry_v8 : (V m c main_v8 : FVec Ideal S128x128 .bf16) = truncf .bf16 (outT m c) bitsLt_bf16_f32 := by
  dsimp only [V, hostOps0]; after_results; rfl

theorem entry_v9 : (V m c main_v9 : FVec Ideal S1x512 .f32) = shapeCast S1x512 (stackedBias m c) shapeCasts_S512_S1x512 := by
  dsimp only [V, hostOps0]; after_results; rfl

theorem entry_v10 : (V m c main_v10 : FVec Ideal S1x128 .f32)
    = shapeCast S1x128 (m ((c : Thread nD τ).loc main_arg12) : FVec Ideal S128 .f32) shapeCasts_S128_S1x128 := by
  dsimp only [V, hostOps0]; after_results; rfl

/-! ## Read at an index -/

/-- Row `k` of the input half of the gate weights is row `k` of the stacked, transposed matrix. -/
theorem gatesX_apply (k : Fin 128) (n : Fin 512) :
    (V m c main_v4 : FVec Ideal S128x512 .bf16) (ix2 k n) = stackedT m c (ix2 (⟨k.val, by omega⟩ : Fin 256) n) := by
  rw [entry_v4]
  exact extractStridedSlice_apply ![0, 0] (stackedT m c) slices_S256x512_S128x512_0_0 (ix2 k n) (ix2 (⟨k.val, by omega⟩ : Fin 256) n)
    (fun a => match a with
      | ⟨0, _⟩ => by show k.val = 0 + k.val; omega
      | ⟨1, _⟩ => by show n.val = 0 + n.val; omega)

/-- Row `k` of the hidden half is row `128 + k`. -/
theorem gatesH_apply (k : Fin 128) (n : Fin 512) :
    (V m c main_v6 : FVec Ideal S128x512 .bf16) (ix2 k n) = stackedT m c (ix2 (⟨128 + k.val, by omega⟩ : Fin 256) n) := by
  rw [entry_v6]
  exact extractStridedSlice_apply ![128, 0] (stackedT m c) slices_S256x512_S128x512_128_0 (ix2 k n) (ix2 (⟨128 + k.val, by omega⟩ : Fin 256) n)
    (fun a => match a with
      | ⟨0, _⟩ => by show 128 + k.val = 128 + k.val; rfl
      | ⟨1, _⟩ => by show n.val = 0 + n.val; omega)

/-- The bias row's entry `n` is the stacked bias's entry `n`. -/
theorem biasRow_apply (n : Fin 512) :
    (V m c main_v9 : FVec Ideal S1x512 .f32) (ix2 (0 : Fin 1) n) = stackedBias m c (ix1 n) := by
  rw [entry_v9]
  refine shapeCast_apply (stackedBias m c) shapeCasts_S512_S1x512 (ix2 (0 : Fin 1) n) (ix1 n) ?_
  rw [Shape.rowMajor_val_one, Shape.rowMajor_val_two]
  show n.val = 0 * 512 + n.val
  omega

/-- The narrowed transposed output matrix is the transposed output matrix. -/
theorem outMat_apply (k o : Fin 128) :
    (V m c main_v8 : FVec Ideal S128x128 .bf16) (ix2 k o) = outT m c (ix2 k o) := by
  rw [entry_v8]; rfl

/-- A vector of 128 entries laid out as one row: entry `(0, o)` is entry `o` (the same row-major position). -/
theorem rowOfVector_apply (x : FVec Ideal S128 .f32) (o : Fin 128) :
    shapeCast S1x128 x shapeCasts_S128_S1x128 (ix2 (0 : Fin 1) o) = x (ix1 o) := by
  refine shapeCast_apply x shapeCasts_S128_S1x128 (ix2 (0 : Fin 1) o) (ix1 o) ?_
  rw [Shape.rowMajor_val_one, Shape.rowMajor_val_two]
  show o.val = 0 * 128 + o.val
  omega

/-- The output bias row's entry `o` is the output bias's entry `o`. -/
theorem outBiasRow_apply (o : Fin 128) :
    (V m c main_v10 : FVec Ideal S1x128 .f32) (ix2 (0 : Fin 1) o) = (m ((c : Thread nD τ).loc main_arg12) : FVec Ideal S128 .f32) (ix1 o) := by
  rw [entry_v10]
  exact rowOfVector_apply _ o

end Cert.KernelIdeal.CellValue

end
-- ==== Proof.Spec.lean ====
/-
  One step of an LSTM cell, row by row, on the extended reals.

  A row of the batch is three vectors of 128 entries: the input `x`, the previous hidden state `h` and the
  previous cell state `cc`. The four gates share one affine map into 512 columns: column `n` is
  `Σₖ x k · Wx k n + Σₖ h k · Wh k n + b n`, where `Wx` and `Wh` are the first and the last 128 rows of the
  stacked, transposed gate matrix. Columns 0–127 are the input gate, 128–255 the forget gate, 256–383 the
  output gate (each through the logistic function), 384–511 the candidate (through tanh). Then

    cell'   = f · cc + i · g,      hidden' = o · tanh cell',      out = hidden' · Wy + by.

  The only algebra the certificate needs is that a contraction over 256 = 128 + 128 indices is the sum of the
  contractions over the two halves (`sum_halves`); it holds in every commutative additive monoid, so no entry
  has to be finite.
-/
import Idealize.ShloMosaic.PureOps.Ideal
import Idealize.ShloMosaic.PureOps.Ideal.Laws
import Idealize.ShloMosaic.Lib.ValueIdx

noncomputable section

open scoped BigOperators

namespace Cert.LstmRow

open Idealize.ShloMosaic

/-- Column `n` of the shared affine map of the four gates. -/
def gate (x h : Fin 128 → EReal) (Wx Wh : Fin 128 → Fin 512 → EReal) (b : Fin 512 → EReal) (n : Fin 512) : EReal :=
  (∑ k : Fin 128, x k * Wx k n + ∑ k : Fin 128, h k * Wh k n) + b n

/-- The new cell state: forget gate times the old state plus input gate times candidate. -/
def cellNew (x h cc : Fin 128 → EReal) (Wx Wh : Fin 128 → Fin 512 → EReal) (b : Fin 512 → EReal) (q : Fin 128) : EReal :=
  Ideal.logistic (gate x h Wx Wh b ⟨128 + q.val, by omega⟩) * cc q
    + Ideal.logistic (gate x h Wx Wh b ⟨q.val, by omega⟩) * Ideal.tanh (gate x h Wx Wh b ⟨384 + q.val, by omega⟩)

/-- The new hidden state: output gate times tanh of the new cell state. -/
def hidNew (x h cc : Fin 128 → EReal) (Wx Wh : Fin 128 → Fin 512 → EReal) (b : Fin 512 → EReal) (q : Fin 128) : EReal :=
  Ideal.logistic (gate x h Wx Wh b ⟨256 + q.val, by omega⟩) * Ideal.tanh (cellNew x h cc Wx Wh b q)

/-- The output: the new hidden state through the output layer. -/
def outNew (x h cc : Fin 128 → EReal) (Wx Wh : Fin 128 → Fin 512 → EReal) (b : Fin 512 → EReal)
    (Wy : Fin 128 → Fin 128 → EReal) (bo : Fin 128 → EReal) (o : Fin 128) : EReal :=
  ∑ k : Fin 128, hidNew x h cc Wx Wh b k * Wy k o + bo o

/-- A sum over 256 indices is the sum over the first 128 plus the sum over the last 128. -/
theorem sum_halves {M : Type*} [AddCommMonoid M] (f : Fin 256 → M) :
    ∑ k : Fin 256, f k = ∑ k : Fin 128, f ⟨k.val, by omega⟩ + ∑ k : Fin 128, f ⟨128 + k.val, by omega⟩ := by
  have h := Fin.sum_univ_add (a := 128) (b := 128) (fun i : Fin (128 + 128) => f ⟨i.val, by omega⟩)
  exact h

/-- The word `0x3F800000` is the number one. -/
theorem ofBits_one : Ideal.ofBits .f32 0x3F800000#32 = 1 := by
  simp [Ideal.ofBits, Ideal.ieee, -EReal.coe_mul]; norm_num

end Cert.LstmRow

end
-- ==== Proof.LibMatmulPlain.lean ====
/-
  A plain matrix product read at an index.

  A `tpu.matmul` of a left operand `[M, K]` by a right operand `[K, N]` that contracts the left operand's second
  axis against the right operand's first, with no batch axis, started from the zero accumulator, is at the exact
  values the textbook product: entry `(p, o)` is the sum over `k : Fin K` of `l (p, k) * r (k, o)`. The operand
  indices a contraction position selects are read off the dimension record axis by axis: a contracted axis takes
  the contraction coordinate, the left operand's free axis the result's row, the right operand's free axis the
  result's column. Stated for any record whose six axis lists are `[1] [0] [0] [1] [] []` (on a printed record each
  hypothesis is `rfl`), general in the three extents and in the operands' float formats.
-/
import Idealize.ShloMosaic.PureOps.Ideal.Laws
import Idealize.ShloMosaic.Lib.ValueIdx

noncomputable section

open scoped BigOperators

namespace Cert.MatmulPlain

open Idealize.ShloMosaic Idealize.ShloMosaic.ValueIdx

variable {M K N : ℕ}

/-- A coordinate of `ix2 p o` read at an axis number known only through an equation. -/
private theorem ix2_val_of_eq {a b : ℕ} (p : Fin a) (o : Fin b) (q : ℕ) (hq : q < 2) :
    (q = 0 → ((ix2 p o : (⟨2, ![a, b]⟩ : Shape).Idx) ⟨q, hq⟩).val = p.val)
    ∧ (q = 1 → ((ix2 p o : (⟨2, ![a, b]⟩ : Shape).Idx) ⟨q, hq⟩).val = o.val) :=
  ⟨fun h => by subst h; rfl, fun h => by subst h; rfl⟩

/-- The one contracted axis has extent `K`, and the contraction shape has that one axis. -/
theorem contr_rank (d : DotDims ⟨2, ![M, K]⟩ ⟨2, ![K, N]⟩ ⟨2, ![M, N]⟩) (hlc : d.lhsContracting = [1]) :
    d.contr.rank = 1 := by rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos)]
  have : d.lhsContracting[0]'(by rw [hlc]; exact Nat.one_pos) = (1 : Fin 2) := by simp [hlc]
  rw [this]; rfl

/-- The left operand's index at result `(p, o)` and contraction coordinate `k` is `(p, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (p : Fin M) (o : Fin N) (k : Fin K) :
    d.lhsIdx (ix2 p o) ((contrEquiv1 d K (contr_rank d hlc) (contr_size d hlc)).symm k) = ix2 p k := by
  have hk := contrEquiv1_symm_val d K (contr_rank d hlc) (contr_size d hlc) k
  funext a
  apply Fin.ext
  match a with
  | ⟨0, _⟩ =>
    unfold DotDims.lhsIdx
    rw [dif_neg (by rw [hlb]; exact List.not_mem_nil), dif_pos (by rw [hln]; exact List.mem_singleton.mpr rfl)]
    simp only [Fin.val_cast]
    exact (ix2_val_of_eq p o _ _).1 (by simp [hlb, hln])
  | ⟨1, _⟩ => exact (d.lhsIdx_val_of_single hlc _ _).trans hk

/-- The right operand's index at result `(p, o)` and contraction coordinate `k` is `(k, o)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (p : Fin M) (o : Fin N) (k : Fin K) :
    d.rhsIdx (ix2 p o) ((contrEquiv1 d K (contr_rank d hlc) (contr_size d hlc)).symm k) = ix2 k o := by
  have hk := contrEquiv1_symm_val d K (contr_rank d hlc) (contr_size d hlc) k
  funext a
  apply Fin.ext
  match a with
  | ⟨0, _⟩ => exact (d.rhsIdx_val_of_single hrc _ _).trans hk
  | ⟨1, _⟩ =>
    unfold DotDims.rhsIdx
    rw [dif_neg (by rw [hrb]; exact List.not_mem_nil), dif_pos (by rw [hrn]; exact List.mem_singleton.mpr rfl)]
    simp only [Fin.val_cast]
    exact (ix2_val_of_eq p o _ _).2 (by simp [hlb, hln, hrn])

/-- A plain matrix product from the zero accumulator, read at `(p, o)`: `∑ k, l (p, k) * r (k, o)`. -/
theorem matmul_plain_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂)
    (p : Fin M) (o : Fin N) :
    FloatOps.matmul d prec l r (constant (F := Ideal) ⟨2, ![M, N]⟩ .f32 0x00000000#32) (ix2 p o)
      = ∑ k : Fin K, l (ix2 p k) * r (ix2 k o) := by
  rw [Ideal.matmul_constant_zero_apply,
    ← Equiv.sum_comp (contrEquiv1 d K (contr_rank d hlc) (contr_size d hlc)).symm]
  refine Finset.sum_congr rfl fun k _ => ?_
  rw [lhsIdx_eq d hlc hln hlb p o k, rhsIdx_eq d hlc hrc hln hrn hlb hrb p o k]

end Cert.MatmulPlain

end
-- ==== Proof.BlockRows.lean ====
/-
  The body's arithmetic on a block of 2048 rows, read entry by entry.

  The body computes, for a block of rows, the 512 gate columns as two matrix products started from zero, added, plus the
  bias row repeated down the block; cuts that array into four bands of 128 columns; and combines them into the new cell
  state, the new hidden state and, through a third matrix product plus a repeated bias row, the output. At the exact
  values every step reads at an entry `(r, c)` as the textbook formula on row `r` alone: a product from the zero
  accumulator is the sum over the 128 contracted positions, rounding to a narrower format and a cast to the same shape
  change nothing, a repeated row reads the row at the column, a band starting at column `off` reads the source at
  column `off + c`, and the logistic function, the hyperbolic tangent, sums and products act entry by entry. So each of
  the three arrays the body stores is, at `(r, c)`, the row specification's value for row `r` at `c`.
-/
import proofs.«121577_j57844619543162_2_alg».proof.Proof.Gen.KernelIdeal.Skeleton
import proofs.«121577_j57844619543162_2_alg».proof.Proof.Spec
import proofs.«121577_j57844619543162_2_alg».proof.Proof.LibMatmulPlain
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx

variable (x0 x1 x2 : Vec Ideal S2048x128 .f32) (w5 w8 : Vec Ideal S128x512 .bf16) (b12 : Vec Ideal S1x512 .f32)
  (w30 : Vec Ideal S128x128 .bf16) (b33 : Vec Ideal S1x128 .f32)

/-! ## The gate columns -/

/-- One of the two products of the gate map read at `(r, n)`: the row of the left operand against the column of the
    right one. Rounding to the narrower format and the cast to the same shape are both the identity here. -/
theorem gate_product (x : FVec Ideal S2048x128 .f32) (w : FVec Ideal S128x512 .bf16) (r : Fin 2048) (n : Fin 512) :
    matmul dot_S2048x128_S128x512_S2048x512_1_0_0_1_n_n none (truncf .bf16 x bitsLt_bf16_f32)
        (shapeCast S128x512 w shapeCasts_S128x512_S128x512) (constant (F := Ideal) S2048x512 .f32 0x00000000#32) (ix2 r n)
      = ∑ k : Fin 128, x (ix2 r k) * w (ix2 k n) := by
  refine (Cert.MatmulPlain.matmul_plain_apply dot_S2048x128_S128x512_S2048x512_1_0_0_1_n_n rfl rfl rfl rfl rfl rfl none
    _ _ r n).trans ?_
  refine Finset.sum_congr rfl fun k _ => ?_
  exact congrArg (fun t => x (ix2 r k) * t) (congrFun (shapeCast_self w shapeCasts_S128x512_S128x512) (ix2 k n))

/-- Column `n` of the gate map on row `r` of the block: the two products plus the bias row's entry. -/
theorem pay1_apply (r : Fin 2048) (n : Fin 512) :
    k0_pay1 (F := Ideal) x0 x1 w5 w8 b12 (ix2 r n)
      = Cert.LstmRow.gate (fun k => x0 (ix2 r k)) (fun k => x1 (ix2 r k)) (fun k n => w5 (ix2 k n))
          (fun k n => w8 (ix2 k n)) (fun n => b12 (ix2 (0 : Fin 1) n)) n := by
  unfold k0_pay1 Cert.LstmRow.gate
  refine congrArg₂ (· + ·) (congrArg₂ (· + ·) (gate_product x0 w5 r n) (gate_product x1 w8 r n)) ?_
  exact (broadcastTo_1b_ab_apply _ broadcasts_S1x512_S2048x512 r n).trans
    (congrFun (shapeCast_self b12 shapeCasts_S1x512_S1x512) (ix2 (0 : Fin 1) n))

/-- A band of 128 gate columns starting at `off`, read at `(r, q)`, is the gate map at column `off + q`. -/
theorem gate_band (off : ℕ) (h : S2048x512.Slices ![0, off] S2048x128) (r : Fin 2048) (q : Fin 128) (k : Fin 512)
    (hk : k.val = off + q.val) :
    extractStridedSlice S2048x128 ![0, off] (k0_pay1 (F := Ideal) x0 x1 w5 w8 b12) h (ix2 r q)
      = Cert.LstmRow.gate (fun k => x0 (ix2 r k)) (fun k => x1 (ix2 r k)) (fun k n => w5 (ix2 k n))
          (fun k n => w8 (ix2 k n)) (fun n => b12 (ix2 (0 : Fin 1) n)) k :=
  (slice2_axis1_apply off _ h r q k hk).trans (pay1_apply x0 x1 w5 w8 b12 r k)

/-! ## The new cell state, the new hidden state, the output -/

/-- The new cell state at `(r, q)`: forget gate times the old state plus input gate times candidate. -/
theorem pay2_apply (r : Fin 2048) (q : Fin 128) :
    k0_pay2 (F := Ideal) x0 x1 x2 w5 w8 b12 (ix2 r q)
      = Cert.LstmRow.cellNew (fun k => x0 (ix2 r k)) (fun k => x1 (ix2 r k)) (fun k => x2 (ix2 r k))
          (fun k n => w5 (ix2 k n)) (fun k n => w8 (ix2 k n)) (fun n => b12 (ix2 (0 : Fin 1) n)) q := by
  unfold k0_pay2 Cert.LstmRow.cellNew
  refine congrArg₂ (· + ·)
    (congrArg (fun t => Ideal.logistic t * x2 (ix2 r q)) ?_)
    (congrArg₂ (fun s t => Ideal.logistic s * Ideal.tanh t) ?_ ?_)
  · exact gate_band x0 x1 w5 w8 b12 128 slices_S2048x512_o0_128_S2048x128 r q ⟨128 + q.val, by omega⟩ rfl
  · exact gate_band x0 x1 w5 w8 b12 0 slices_S2048x512_o0_0_S2048x128 r q ⟨q.val, by omega⟩ (Nat.zero_add _).symm
  · exact gate_band x0 x1 w5 w8 b12 384 slices_S2048x512_o0_384_S2048x128 r q ⟨384 + q.val, by omega⟩ rfl

/-- The new hidden state at `(r, q)`: output gate times `tanh` of the new cell state. -/
theorem pay3_apply (r : Fin 2048) (q : Fin 128) :
    k0_pay3 (F := Ideal) x0 x1 x2 w5 w8 b12 (ix2 r q)
      = Cert.LstmRow.hidNew (fun k => x0 (ix2 r k)) (fun k => x1 (ix2 r k)) (fun k => x2 (ix2 r k))
          (fun k n => w5 (ix2 k n)) (fun k n => w8 (ix2 k n)) (fun n => b12 (ix2 (0 : Fin 1) n)) q := by
  unfold k0_pay3 Cert.LstmRow.hidNew
  refine congrArg₂ (fun s t => Ideal.logistic s * Ideal.tanh t) ?_ (pay2_apply x0 x1 x2 w5 w8 b12 r q)
  exact gate_band x0 x1 w5 w8 b12 256 slices_S2048x512_o0_256_S2048x128 r q ⟨256 + q.val, by omega⟩ rfl

/-- The output at `(r, o)`: the new hidden row against column `o` of the output matrix, plus the bias entry. -/
theorem pay4_apply (r : Fin 2048) (o : Fin 128) :
    k0_pay4 (F := Ideal) x0 x1 x2 w5 w8 b12 w30 b33 (ix2 r o)
      = Cert.LstmRow.outNew (fun k => x0 (ix2 r k)) (fun k => x1 (ix2 r k)) (fun k => x2 (ix2 r k))
          (fun k n => w5 (ix2 k n)) (fun k n => w8 (ix2 k n)) (fun n => b12 (ix2 (0 : Fin 1) n))
          (fun k o => w30 (ix2 k o)) (fun o => b33 (ix2 (0 : Fin 1) o)) o := by
  unfold k0_pay4 Cert.LstmRow.outNew
  refine congrArg₂ (· + ·) ?_ ?_
  · refine (Cert.MatmulPlain.matmul_plain_apply dot_S2048x128_S128x128_S2048x128_1_0_0_1_n_n rfl rfl rfl rfl rfl rfl none
      _ _ r o).trans ?_
    refine Finset.sum_congr rfl fun k _ => ?_
    exact congrArg₂ (· * ·) (pay3_apply x0 x1 x2 w5 w8 b12 r k)
      (congrFun (shapeCast_self w30 shapeCasts_S128x128_S128x128) (ix2 k o))
  · exact (broadcastTo_1b_ab_apply _ broadcasts_S1x128_S2048x128 r o).trans
      (congrFun (shapeCast_self b33 shapeCasts_S1x128_S1x128) (ix2 (0 : Fin 1) o))

end Cert.KernelIdeal.BlockValue

end
-- ==== Proof.CellArrays.lean ====
/-
  From blocks to arrays: what the three result arrays hold after the region, at the ideal instance.

  Grid point `t` handles batch rows `2048 t … 2048 t + 2047`: the three batch inputs' blocks and the three outputs'
  blocks all sit at block row `t`, and the five weight windows' blocks are their whole arrays at every point
  (`block_index`, decided over the 64 points). The body's stored values are row-wise (the block-level readings
  of the body's arithmetic), so what point `t` writes back is block `t` of ONE whole-array function: row `p` of
  the result is the row specification of row `p` of the inputs. The 64 blocks tile the 131072 rows, so each result
  array ends holding that function.
-/
import proofs.«121577_j57844619543162_2_alg».proof.Proof.FrameKernelIdeal
import proofs.«121577_j57844619543162_2_alg».proof.Proof.EntryWeights
import proofs.«121577_j57844619543162_2_alg».proof.Proof.BlockRows
import Idealize.ShloMosaic.Lib.Pipeline.Value
import Idealize.ShloMosaic.Lib.ValueIdx

set_option maxRecDepth 16384

noncomputable section

namespace Cert.KernelIdeal.CellValue

open Cert.KernelIdeal Cert.KernelIdeal.Gen Cert.KernelIdeal.Cell
open Idealize.ShloMosaic Idealize.ShloMosaic.TcCoe Idealize.SL.Sem Idealize.ShloMosaic.ValueIdx
open Idealize.ShloMosaic.Pipeline (Dat Cfg Window)

/-! ## The result arrays as functions of whole arrays -/

/-- The new cell state of every row: row `p` from row `p` of the three batch arrays. -/
def cellArrOf (A0 A1 A2 : FVec Ideal S131072x128 .f32) (Wx Wh : Fin 128 → Fin 512 → EReal) (b : Fin 512 → EReal) :
    FVec Ideal S131072x128 .f32 :=
  fun i => Cert.LstmRow.cellNew (fun k => A0 (ix2 (i 0 : Fin 131072) k)) (fun k => A1 (ix2 (i 0 : Fin 131072) k))
    (fun k => A2 (ix2 (i 0 : Fin 131072) k)) Wx Wh b (i 1 : Fin 128)

/-- The new hidden state of every row. -/
def hidArrOf (A0 A1 A2 : FVec Ideal S131072x128 .f32) (Wx Wh : Fin 128 → Fin 512 → EReal) (b : Fin 512 → EReal) :
    FVec Ideal S131072x128 .f32 :=
  fun i => Cert.LstmRow.hidNew (fun k => A0 (ix2 (i 0 : Fin 131072) k)) (fun k => A1 (ix2 (i 0 : Fin 131072) k))
    (fun k => A2 (ix2 (i 0 : Fin 131072) k)) Wx Wh b (i 1 : Fin 128)

/-- The output of every row. -/
def outArrOf (A0 A1 A2 : FVec Ideal S131072x128 .f32) (Wx Wh : Fin 128 → Fin 512 → EReal) (b : Fin 512 → EReal)
    (Wy : Fin 128 → Fin 128 → EReal) (bo : Fin 128 → EReal) : FVec Ideal S131072x128 .f32 :=
  fun i => Cert.LstmRow.outNew (fun k => A0 (ix2 (i 0 : Fin 131072) k)) (fun k => A1 (ix2 (i 0 : Fin 131072) k))
    (fun k => A2 (ix2 (i 0 : Fin 131072) k)) Wx Wh b Wy bo (i 1 : Fin 128)

/-! ## One entry of a stored block against one entry of the whole-array function -/

section Point
variable (A0 A1 A2 : FVec Ideal S131072x128 .f32)
  (x0 x1 x2 : Vec Ideal S2048x128 .f32) (w5 w8 : Vec Ideal S128x512 .bf16) (b12 : Vec Ideal S1x512 .f32)
  (w30 : Vec Ideal S128x128 .bf16) (b33 : Vec Ideal S1x128 .f32)
  (r : Fin 2048) (q : Fin 128) (p : Fin 131072)
  (h0 : ∀ k : Fin 128, x0 (ix2 r k) = A0 (ix2 p k)) (h1 : ∀ k : Fin 128, x1 (ix2 r k) = A1 (ix2 p k))
  (h2 : ∀ k : Fin 128, x2 (ix2 r k) = A2 (ix2 p k))

include h0 h1 h2

/-- If row `r` of the three input blocks is row `p` of the three arrays, the stored cell block at `(r, q)` is the
    whole-array function at `(p, q)`. -/
theorem cell_point :
    k0_pay2 (F := Ideal) x0 x1 x2 w5 w8 b12 (ix2 r q)
      = cellArrOf A0 A1 A2 (fun k n => w5 (ix2 k n)) (fun k n => w8 (ix2 k n)) (fun n => b12 (ix2 (0 : Fin 1) n)) (ix2 p q) := by
  rw [Cert.KernelIdeal.BlockValue.pay2_apply]
  have e0 : (fun k : Fin 128 => x0 (ix2 r k)) = fun k => A0 (ix2 p k) := funext h0
  have e1 : (fun k : Fin 128 => x1 (ix2 r k)) = fun k => A1 (ix2 p k) := funext h1
  have e2 : (fun k : Fin 128 => x2 (ix2 r k)) = fun k => A2 (ix2 p k) := funext h2
  rw [e0, e1, e2]
  rfl

/-- The same for the stored hidden block. -/
theorem hid_point :
    k0_pay3 (F := Ideal) x0 x1 x2 w5 w8 b12 (ix2 r q)
      = hidArrOf A0 A1 A2 (fun k n => w5 (ix2 k n)) (fun k n => w8 (ix2 k n)) (fun n => b12 (ix2 (0 : Fin 1) n)) (ix2 p q) := by
  rw [Cert.KernelIdeal.BlockValue.pay3_apply]
  have e0 : (fun k : Fin 128 => x0 (ix2 r k)) = fun k => A0 (ix2 p k) := funext h0
  have e1 : (fun k : Fin 128 => x1 (ix2 r k)) = fun k => A1 (ix2 p k) := funext h1
  have e2 : (fun k : Fin 128 => x2 (ix2 r k)) = fun k => A2 (ix2 p k) := funext h2
  rw [e0, e1, e2]
  rfl

/-- The same for the stored output block. -/
theorem out_point :
    k0_pay4 (F := Ideal) x0 x1 x2 w5 w8 b12 w30 b33 (ix2 r q)
      = outArrOf A0 A1 A2 (fun k n => w5 (ix2 k n)) (fun k n => w8 (ix2 k n)) (fun n => b12 (ix2 (0 : Fin 1) n))
          (fun k o => w30 (ix2 k o)) (fun o => b33 (ix2 (0 : Fin 1) o)) (ix2 p q) := by
  rw [Cert.KernelIdeal.BlockValue.pay4_apply]
  have e0 : (fun k : Fin 128 => x0 (ix2 r k)) = fun k => A0 (ix2 p k) := funext h0
  have e1 : (fun k : Fin 128 => x1 (ix2 r k)) = fun k => A1 (ix2 p k) := funext h1
  have e2 : (fun k : Fin 128 => x2 (ix2 r k)) = fun k => A2 (ix2 p k) := funext h2
  rw [e0, e1, e2]
  rfl

end Point

/-! ## The blocks' places -/

variable (m : (ℓ : Loc nD τ sig) → Buf (Elt Ideal) ℓ) (c : Dev nD)

theorem hz : (![0, 0] : Fin 2 → Nat) = fun _ => 0 := funext fun a => by fin_cases a <;> rfl

/-- The batch windows and the result windows sit at block row `t`; the weight windows at their whole arrays. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

theorem point_lt (t : Fin cfg0.N) : t.val < 64 := by
  have h : cfg0.N = 64 := N_0
  have := t.isLt
  omega

/-- The weights as the windows hold them. -/
def Wx : Fin 128 → Fin 512 → EReal := fun k n => stackedT m c (ix2 (⟨k.val, by omega⟩ : Fin 256) n)
def Wh : Fin 128 → Fin 512 → EReal := fun k n => stackedT m c (ix2 (⟨128 + k.val, by omega⟩ : Fin 256) n)
def Bg : Fin 512 → EReal := fun n => stackedBias m c (ix1 n)
def Wy : Fin 128 → Fin 128 → EReal := fun k o => outT m c (ix2 k o)
def Bo : Fin 128 → EReal := fun o => (m ((c : Thread nD τ).loc main_arg12) : FVec Ideal S128 .f32) (ix1 o)

/-- Window 3's block at every point is its whole array. -/
theorem blk3_eq (t : Fin cfg0.N) : (fun (k : Fin 128) (n : Fin 512) => iblk m c 3 t (ix2 k n)) = Wx m c := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext k n
  show (V m c main_v4 : FVec Ideal S128x512 .bf16) (((cfg0.win 3).blk t).view.emb (ix2 k n)) = _
  have he : ((cfg0.win 3).blk t).view.emb (ix2 k n) = ix2 k n := by
    funext a; apply Fin.ext
    match a with
    | ⟨0, _⟩ => show win0_3.index t (0 : Fin 2) * 128 + 1 * k.val = k.val; rw [e3_0]; omega
    | ⟨1, _⟩ => show win0_3.index t (1 : Fin 2) * 512 + 1 * n.val = n.val; rw [e3_1]; omega
  rw [he]
  exact gatesX_apply m c k n
/-- Window 4's block at every point is its whole array. -/
theorem blk4_eq (t : Fin cfg0.N) : (fun (k : Fin 128) (n : Fin 512) => iblk m c 4 t (ix2 k n)) = Wh m c := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext k n
  show (V m c main_v6 : FVec Ideal S128x512 .bf16) (((cfg0.win 4).blk t).view.emb (ix2 k n)) = _
  have he : ((cfg0.win 4).blk t).view.emb (ix2 k n) = ix2 k n := by
    funext a; apply Fin.ext
    match a with
    | ⟨0, _⟩ => show win0_4.index t (0 : Fin 2) * 128 + 1 * k.val = k.val; rw [e4_0]; omega
    | ⟨1, _⟩ => show win0_4.index t (1 : Fin 2) * 512 + 1 * n.val = n.val; rw [e4_1]; omega
  rw [he]
  exact gatesH_apply m c k n
/-- Window 6's block at every point is its whole array. -/
theorem blk6_eq (t : Fin cfg0.N) : (fun (k : Fin 128) (n : Fin 128) => iblk m c 6 t (ix2 k n)) = Wy m c := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext k n
  show (V m c main_v8 : FVec Ideal S128x128 .bf16) (((cfg0.win 6).blk t).view.emb (ix2 k n)) = _
  have he : ((cfg0.win 6).blk t).view.emb (ix2 k n) = ix2 k n := by
    funext a; apply Fin.ext
    match a with
    | ⟨0, _⟩ => show win0_6.index t (0 : Fin 2) * 128 + 1 * k.val = k.val; rw [e6_0]; omega
    | ⟨1, _⟩ => show win0_6.index t (1 : Fin 2) * 128 + 1 * n.val = n.val; rw [e6_1]; omega
  rw [he]
  exact outMat_apply m c k n
/-- Window 5's block at every point is its whole one-row array. -/
theorem blk5_eq (t : Fin cfg0.N) : (fun (n : Fin 512) => iblk m c 5 t (ix2 (0 : Fin 1) n)) = Bg m c := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext n
  show (V m c main_v9 : FVec Ideal S1x512 .f32) (((cfg0.win 5).blk t).view.emb (ix2 (0 : Fin 1) n)) = _
  have he : ((cfg0.win 5).blk t).view.emb (ix2 (0 : Fin 1) n) = ix2 (0 : Fin 1) n := by
    funext a; apply Fin.ext
    match a with
    | ⟨0, _⟩ => show win0_5.index t (0 : Fin 2) * 1 + 1 * 0 = 0; rw [e5_0]
    | ⟨1, _⟩ => show win0_5.index t (1 : Fin 2) * 512 + 1 * n.val = n.val; rw [e5_1]; omega
  rw [he]
  exact biasRow_apply m c n
/-- Window 7's block at every point is its whole one-row array. -/
theorem blk7_eq (t : Fin cfg0.N) : (fun (n : Fin 128) => iblk m c 7 t (ix2 (0 : Fin 1) n)) = Bo m c := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext n
  show (V m c main_v10 : FVec Ideal S1x128 .f32) (((cfg0.win 7).blk t).view.emb (ix2 (0 : Fin 1) n)) = _
  have he : ((cfg0.win 7).blk t).view.emb (ix2 (0 : Fin 1) n) = ix2 (0 : Fin 1) n := by
    funext a; apply Fin.ext
    match a with
    | ⟨0, _⟩ => show win0_7.index t (0 : Fin 2) * 1 + 1 * 0 = 0; rw [e7_0]
    | ⟨1, _⟩ => show win0_7.index t (1 : Fin 2) * 128 + 1 * n.val = n.val; rw [e7_1]; omega
  rw [he]
  exact outBiasRow_apply m c n

/-- Row `r` of batch window 0's block at point `t` is row `2048 t + r` of its array. -/
theorem rows0_eq (t : Fin cfg0.N) (r : Fin 2048) (k : Fin 128) :
    iblk m c 0 t (ix2 r k)
      = (V m c main_arg0 : FVec Ideal S131072x128 .f32) (ix2 (⟨t.val * 2048 + r.val, by have := point_lt t; omega⟩ : Fin 131072) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  show (V m c main_arg0 : FVec Ideal S131072x128 .f32) (((cfg0.win 0).blk t).view.emb (ix2 r k)) = _
  refine congrArg _ (funext fun a => Fin.ext ?_)
  match a with
  | ⟨0, _⟩ => show win0_0.index t (0 : Fin 2) * 2048 + 1 * r.val = t.val * 2048 + r.val; rw [e0_0]; omega
  | ⟨1, _⟩ => show win0_0.index t (1 : Fin 2) * 128 + 1 * k.val = k.val; rw [e0_1]; omega
/-- Row `r` of batch window 1's block at point `t` is row `2048 t + r` of its array. -/
theorem rows1_eq (t : Fin cfg0.N) (r : Fin 2048) (k : Fin 128) :
    iblk m c 1 t (ix2 r k)
      = (V m c main_arg1 : FVec Ideal S131072x128 .f32) (ix2 (⟨t.val * 2048 + r.val, by have := point_lt t; omega⟩ : Fin 131072) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  show (V m c main_arg1 : FVec Ideal S131072x128 .f32) (((cfg0.win 1).blk t).view.emb (ix2 r k)) = _
  refine congrArg _ (funext fun a => Fin.ext ?_)
  match a with
  | ⟨0, _⟩ => show win0_1.index t (0 : Fin 2) * 2048 + 1 * r.val = t.val * 2048 + r.val; rw [e1_0]; omega
  | ⟨1, _⟩ => show win0_1.index t (1 : Fin 2) * 128 + 1 * k.val = k.val; rw [e1_1]; omega
/-- Row `r` of batch window 2's block at point `t` is row `2048 t + r` of its array. -/
theorem rows2_eq (t : Fin cfg0.N) (r : Fin 2048) (k : Fin 128) :
    iblk m c 2 t (ix2 r k)
      = (V m c main_arg2 : FVec Ideal S131072x128 .f32) (ix2 (⟨t.val * 2048 + r.val, by have := point_lt t; omega⟩ : Fin 131072) k) := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  show (V m c main_arg2 : FVec Ideal S131072x128 .f32) (((cfg0.win 2).blk t).view.emb (ix2 r k)) = _
  refine congrArg _ (funext fun a => Fin.ext ?_)
  match a with
  | ⟨0, _⟩ => show win0_2.index t (0 : Fin 2) * 2048 + 1 * r.val = t.val * 2048 + r.val; rw [e2_0]; omega
  | ⟨1, _⟩ => show win0_2.index t (1 : Fin 2) * 128 + 1 * k.val = k.val; rw [e2_1]; omega

/-- Entry `(r, q)` of result window 8's block at point `t` sits at `(2048 t + r, q)` of its array. -/
theorem place8 (t : Fin cfg0.N) (r : Fin 2048) (q : Fin 128) :
    ((cfg0.win 8).blk t).view.emb (ix2 r q) = ix2 (⟨t.val * 2048 + r.val, by have := point_lt t; omega⟩ : Fin 131072) q := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext a; apply Fin.ext
  match a with
  | ⟨0, _⟩ => show win0_8.index t (0 : Fin 2) * 2048 + 1 * r.val = t.val * 2048 + r.val; rw [e8_0]; omega
  | ⟨1, _⟩ => show win0_8.index t (1 : Fin 2) * 128 + 1 * q.val = q.val; rw [e8_1]; omega

/-- An index of the array is in point `t`'s block of window 8 iff each coordinate is in the block's range. -/
theorem mem_blk8 (t : Fin cfg0.N) (i : S131072x128.Idx) :
    i ∈ ((cfg0.win 8).blk t).view.set ↔ ∀ a : Fin 2, win0_8.index t a * S2048x128.size a ≤ (i a).val ∧ (i a).val < win0_8.index t a * S2048x128.size a + S2048x128.size a := by
  show i ∈ ((View.whole main_v11_0).slice (win0_8.rect t)).set ↔ _
  rw [View.set_slice_whole, Rect.mem_set_unit]
  exact Iff.rfl

/-- Row `p` is in the block of point `p / 2048`: the 64 blocks of window 8 cover its array. -/
theorem cover8 (i : S131072x128.Idx) :
    ∃ t : Fin cfg0.N, (cfg0.win 8).flush t = true ∧ i ∈ ((cfg0.win 8).blk t).view.set := by
  have hi0 : (i 0).val < 131072 := (i 0).isLt
  have hi1 : (i 1).val < 128 := (i 1).isLt
  have hN : cfg0.N = 64 := N_0
  let t : Fin cfg0.N := ⟨(i 0).val / 2048, by rw [hN]; omega⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  refine ⟨t, flush0_8 t, ?_⟩
  rw [mem_blk8]
  intro a
  match a with
  | ⟨0, _⟩ =>
    show win0_8.index t (0 : Fin 2) * 2048 ≤ (i 0).val ∧ (i 0).val < win0_8.index t (0 : Fin 2) * 2048 + 2048
    rw [e8_0]
    show (i 0).val / 2048 * 2048 ≤ (i 0).val ∧ (i 0).val < (i 0).val / 2048 * 2048 + 2048
    omega
  | ⟨1, _⟩ =>
    show win0_8.index t (1 : Fin 2) * 128 ≤ (i 1).val ∧ (i 1).val < win0_8.index t (1 : Fin 2) * 128 + 128
    rw [e8_1]
    omega

/-- Entry `(r, q)` of result window 9's block at point `t` sits at `(2048 t + r, q)` of its array. -/
theorem place9 (t : Fin cfg0.N) (r : Fin 2048) (q : Fin 128) :
    ((cfg0.win 9).blk t).view.emb (ix2 r q) = ix2 (⟨t.val * 2048 + r.val, by have := point_lt t; omega⟩ : Fin 131072) q := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext a; apply Fin.ext
  match a with
  | ⟨0, _⟩ => show win0_9.index t (0 : Fin 2) * 2048 + 1 * r.val = t.val * 2048 + r.val; rw [e9_0]; omega
  | ⟨1, _⟩ => show win0_9.index t (1 : Fin 2) * 128 + 1 * q.val = q.val; rw [e9_1]; omega

/-- An index of the array is in point `t`'s block of window 9 iff each coordinate is in the block's range. -/
theorem mem_blk9 (t : Fin cfg0.N) (i : S131072x128.Idx) :
    i ∈ ((cfg0.win 9).blk t).view.set ↔ ∀ a : Fin 2, win0_9.index t a * S2048x128.size a ≤ (i a).val ∧ (i a).val < win0_9.index t a * S2048x128.size a + S2048x128.size a := by
  show i ∈ ((View.whole main_v11_1).slice (win0_9.rect t)).set ↔ _
  rw [View.set_slice_whole, Rect.mem_set_unit]
  exact Iff.rfl

/-- Row `p` is in the block of point `p / 2048`: the 64 blocks of window 9 cover its array. -/
theorem cover9 (i : S131072x128.Idx) :
    ∃ t : Fin cfg0.N, (cfg0.win 9).flush t = true ∧ i ∈ ((cfg0.win 9).blk t).view.set := by
  have hi0 : (i 0).val < 131072 := (i 0).isLt
  have hi1 : (i 1).val < 128 := (i 1).isLt
  have hN : cfg0.N = 64 := N_0
  let t : Fin cfg0.N := ⟨(i 0).val / 2048, by rw [hN]; omega⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  refine ⟨t, flush0_9 t, ?_⟩
  rw [mem_blk9]
  intro a
  match a with
  | ⟨0, _⟩ =>
    show win0_9.index t (0 : Fin 2) * 2048 ≤ (i 0).val ∧ (i 0).val < win0_9.index t (0 : Fin 2) * 2048 + 2048
    rw [e9_0]
    show (i 0).val / 2048 * 2048 ≤ (i 0).val ∧ (i 0).val < (i 0).val / 2048 * 2048 + 2048
    omega
  | ⟨1, _⟩ =>
    show win0_9.index t (1 : Fin 2) * 128 ≤ (i 1).val ∧ (i 1).val < win0_9.index t (1 : Fin 2) * 128 + 128
    rw [e9_1]
    omega

/-- Entry `(r, q)` of result window 10's block at point `t` sits at `(2048 t + r, q)` of its array. -/
theorem place10 (t : Fin cfg0.N) (r : Fin 2048) (q : Fin 128) :
    ((cfg0.win 10).blk t).view.emb (ix2 r q) = ix2 (⟨t.val * 2048 + r.val, by have := point_lt t; omega⟩ : Fin 131072) q := by
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  funext a; apply Fin.ext
  match a with
  | ⟨0, _⟩ => show win0_10.index t (0 : Fin 2) * 2048 + 1 * r.val = t.val * 2048 + r.val; rw [e10_0]; omega
  | ⟨1, _⟩ => show win0_10.index t (1 : Fin 2) * 128 + 1 * q.val = q.val; rw [e10_1]; omega

/-- An index of the array is in point `t`'s block of window 10 iff each coordinate is in the block's range. -/
theorem mem_blk10 (t : Fin cfg0.N) (i : S131072x128.Idx) :
    i ∈ ((cfg0.win 10).blk t).view.set ↔ ∀ a : Fin 2, win0_10.index t a * S2048x128.size a ≤ (i a).val ∧ (i a).val < win0_10.index t a * S2048x128.size a + S2048x128.size a := by
  show i ∈ ((View.whole main_v11_2).slice (win0_10.rect t)).set ↔ _
  rw [View.set_slice_whole, Rect.mem_set_unit]
  exact Iff.rfl

/-- Row `p` is in the block of point `p / 2048`: the 64 blocks of window 10 cover its array. -/
theorem cover10 (i : S131072x128.Idx) :
    ∃ t : Fin cfg0.N, (cfg0.win 10).flush t = true ∧ i ∈ ((cfg0.win 10).blk t).view.set := by
  have hi0 : (i 0).val < 131072 := (i 0).isLt
  have hi1 : (i 1).val < 128 := (i 1).isLt
  have hN : cfg0.N = 64 := N_0
  let t : Fin cfg0.N := ⟨(i 0).val / 2048, by rw [hN]; omega⟩
  obtain ⟨e0_0, e0_1, e1_0, e1_1, e2_0, e2_1, e3_0, e3_1, e4_0, e4_1, e5_0, e5_1, e6_0, e6_1, e7_0, e7_1, e8_0, e8_1, e9_0, e9_1, e10_0, e10_1⟩ := block_index t
  refine ⟨t, flush0_10 t, ?_⟩
  rw [mem_blk10]
  intro a
  match a with
  | ⟨0, _⟩ =>
    show win0_10.index t (0 : Fin 2) * 2048 ≤ (i 0).val ∧ (i 0).val < win0_10.index t (0 : Fin 2) * 2048 + 2048
    rw [e10_0]
    show (i 0).val / 2048 * 2048 ≤ (i 0).val ∧ (i 0).val < (i 0).val / 2048 * 2048 + 2048
    omega
  | ⟨1, _⟩ =>
    show win0_10.index t (1 : Fin 2) * 128 ≤ (i 1).val ∧ (i 1).val < win0_10.index t (1 : Fin 2) * 128 + 128
    rw [e10_1]
    omega

/-! ## What each point writes back, and the arrays after the run -/

/-- The three result arrays as functions of the arrays the region finds. -/
def cellArr : FVec Ideal S131072x128 .f32 :=
  cellArrOf (V m c main_arg0) (V m c main_arg1) (V m c main_arg2) (Wx m c) (Wh m c) (Bg m c)
def hidArr : FVec Ideal S131072x128 .f32 :=
  hidArrOf (V m c main_arg0) (V m c main_arg1) (V m c main_arg2) (Wx m c) (Wh m c) (Bg m c)
def outArr : FVec Ideal S131072x128 .f32 :=
  outArrOf (V m c main_arg0) (V m c main_arg1) (V m c main_arg2) (Wx m c) (Wh m c) (Bg m c) (Wy m c) (Bo m c)

/-- Point `t` writes back block `t` of the new cell state. -/
theorem flushedC_eq (t : Fin cfg0.N) :
    (dats m 0 c).flushed 10 t = ((cfg0.win 10).blk t).view.read (Elt Ideal) (cellArr m c) := by
  show (cfg0.win 10).cut (grid0.coords t) ((dats m 0 c).after 10 t) = _
  rw [after_outC]
  unfold outC
  rw [View.canon_unit_zero hz]
  simp only [View.ld_unit_zero (S := S2048x128) hz, View.ld_unit_zero (S := S128x512) hz, View.ld_unit_zero (S := S1x512) hz]
  funext y
  obtain ⟨r, q, rfl⟩ : ∃ (r : Fin 2048) (q : Fin 128), y = ix2 r q := ⟨y 0, y 1, eq_ix2 y⟩
  show k0_pay2 (F := Ideal) (iblk m c 0 t) (iblk m c 1 t) (iblk m c 2 t) (iblk m c 3 t) (iblk m c 4 t) (iblk m c 5 t) (ix2 r q) = cellArr m c (((cfg0.win 10).blk t).view.emb (ix2 r q))
  rw [place10 t r q]
  refine (cell_point (V m c main_arg0) (V m c main_arg1) (V m c main_arg2) (iblk m c 0 t) (iblk m c 1 t) (iblk m c 2 t) (iblk m c 3 t) (iblk m c 4 t) (iblk m c 5 t) r q _
    (rows0_eq m c t r) (rows1_eq m c t r) (rows2_eq m c t r)).trans ?_
  rw [blk3_eq m c t, blk4_eq m c t, blk5_eq m c t]
  rfl

/-- Point `t` writes back block `t` of the new hidden state. -/
theorem flushedH_eq (t : Fin cfg0.N) :
    (dats m 0 c).flushed 9 t = ((cfg0.win 9).blk t).view.read (Elt Ideal) (hidArr m c) := by
  show (cfg0.win 9).cut (grid0.coords t) ((dats m 0 c).after 9 t) = _
  rw [after_outH]
  unfold outH
  rw [View.canon_unit_zero hz]
  simp only [View.ld_unit_zero (S := S2048x128) hz, View.ld_unit_zero (S := S128x512) hz, View.ld_unit_zero (S := S1x512) hz]
  funext y
  obtain ⟨r, q, rfl⟩ : ∃ (r : Fin 2048) (q : Fin 128), y = ix2 r q := ⟨y 0, y 1, eq_ix2 y⟩
  show k0_pay3 (F := Ideal) (iblk m c 0 t) (iblk m c 1 t) (iblk m c 2 t) (iblk m c 3 t) (iblk m c 4 t) (iblk m c 5 t) (ix2 r q) = hidArr m c (((cfg0.win 9).blk t).view.emb (ix2 r q))
  rw [place9 t r q]
  refine (hid_point (V m c main_arg0) (V m c main_arg1) (V m c main_arg2) (iblk m c 0 t) (iblk m c 1 t) (iblk m c 2 t) (iblk m c 3 t) (iblk m c 4 t) (iblk m c 5 t) r q _
    (rows0_eq m c t r) (rows1_eq m c t r) (rows2_eq m c t r)).trans ?_
  rw [blk3_eq m c t, blk4_eq m c t, blk5_eq m c t]
  rfl

/-- Point `t` writes back block `t` of the output. -/
theorem flushedY_eq (t : Fin cfg0.N) :
    (dats m 0 c).flushed 8 t = ((cfg0.win 8).blk t).view.read (Elt Ideal) (outArr m c) := by
  show (cfg0.win 8).cut (grid0.coords t) ((dats m 0 c).after 8 t) = _
  rw [after_outY]
  unfold outY
  rw [View.canon_unit_zero hz]
  simp only [View.ld_unit_zero (S := S2048x128) hz, View.ld_unit_zero (S := S128x512) hz, View.ld_unit_zero (S := S1x512) hz,
    View.ld_unit_zero (S := S128x128) hz, View.ld_unit_zero (S := S1x128) hz]
  funext y
  obtain ⟨r, q, rfl⟩ : ∃ (r : Fin 2048) (q : Fin 128), y = ix2 r q := ⟨y 0, y 1, eq_ix2 y⟩
  show k0_pay4 (F := Ideal) (iblk m c 0 t) (iblk m c 1 t) (iblk m c 2 t) (iblk m c 3 t) (iblk m c 4 t) (iblk m c 5 t) (iblk m c 6 t) (iblk m c 7 t) (ix2 r q) = outArr m c (((cfg0.win 8).blk t).view.emb (ix2 r q))
  rw [place8 t r q]
  refine (out_point (V m c main_arg0) (V m c main_arg1) (V m c main_arg2) (iblk m c 0 t) (iblk m c 1 t) (iblk m c 2 t) (iblk m c 3 t) (iblk m c 4 t) (iblk m c 5 t) (iblk m c 6 t) (iblk m c 7 t) r q _
    (rows0_eq m c t r) (rows1_eq m c t r) (rows2_eq m c t r)).trans ?_
  rw [blk3_eq m c t, blk4_eq m c t, blk5_eq m c t, blk6_eq m c t, blk7_eq m c t]
  rfl

/-- The three result arrays after the run. -/
theorem finalC : (dats m 0 c).arrAt 10 cfg0.N = cellArr m c :=
  (dats m 0 c).arrAt_eq_of_cover 10 (cellArr m c) (fun t _ => flushedC_eq m c t) cover10
theorem finalH : (dats m 0 c).arrAt 9 cfg0.N = hidArr m c :=
  (dats m 0 c).arrAt_eq_of_cover 9 (hidArr m c) (fun t _ => flushedH_eq m c t) cover9
theorem finalY : (dats m 0 c).arrAt 8 cfg0.N = outArr m c :=
  (dats m 0 c).arrAt_eq_of_cover 8 (outArr m c) (fun t _ => flushedY_eq m c t) cover8

/-! ## In terms of the launch contents -/

/-- The batch arrays are found as launched, so the results are functions of the launch contents. -/
theorem cellArr_launch : cellArr m c
    = cellArrOf (m ((c : Thread nD τ).loc main_arg0)) (m ((c : Thread nD τ).loc main_arg1)) (m ((c : Thread nD τ).loc main_arg2)) (Wx m c) (Wh m c) (Bg m c) := by
  unfold cellArr; rw [V_main_arg0, V_main_arg1, V_main_arg2]
theorem hidArr_launch : hidArr m c
    = hidArrOf (m ((c : Thread nD τ).loc main_arg0)) (m ((c : Thread nD τ).loc main_arg1)) (m ((c : Thread nD τ).loc main_arg2)) (Wx m c) (Wh m c) (Bg m c) := by
  unfold hidArr; rw [V_main_arg0, V_main_arg1, V_main_arg2]
theorem outArr_launch : outArr m c
    = outArrOf (m ((c : Thread nD τ).loc main_arg0)) (m ((c : Thread nD τ).loc main_arg1)) (m ((c : Thread nD τ).loc main_arg2)) (Wx m c) (Wh m c) (Bg m c) (Wy m c) (Bo m c) := by
  unfold outArr; rw [V_main_arg0, V_main_arg1, V_main_arg2]

/-! ## The run, read -/

/-- Every weakly fair execution of the idealized kernel's @main terminates with the three result arrays at their
    whole-array functions and the arguments unchanged. -/
theorem run (ρ : Dev nD → PrngReg) : θ_run defs (onTc (τ := τ) (main (F := Ideal))) ⟨m, fun _ => 0, ρ⟩ fun r => ∀ c : Dev nD,
      r.2.mem ((c : Thread nD τ).loc main_v11_0) = outArr m c
      ∧ r.2.mem ((c : Thread nD τ).loc main_v11_1) = hidArr m c
      ∧ r.2.mem ((c : Thread nD τ).loc main_v11_2) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨((h c).1 8).trans (finalY m c), ((h c).1 9).trans (finalH m c),
      ((h c).1 10).trans (finalC m c), kept_args m (dats m) (A_eq m) r h c⟩)
    (run_main m ρ)

end Cert.KernelIdeal.CellValue

end
-- ==== Proof.RefRows.lean ====
/-
  The reference program of the LSTM cell, read row by row.

  The reference joins the input and the previous hidden state into one row of 256 entries, multiplies it by the
  stacked, transposed gate matrix (256 rows, 512 columns), adds the stacked bias, cuts the 512 columns into four
  slices of 128 (input gate, forget gate, output gate, candidate), passes the first three through the logistic
  function (written `1 / (1 + exp (−x))`) and the fourth through tanh, and then forms

    cell'   = f · cell + i · g,      hidden' = o · tanh cell',      out = hidden' · Wy + by.

  This module reads each of those stages at one entry `(p, q)` and shows that the three results are the row-wise
  specification `Cert.LstmRow.cellNew` / `hidNew` / `outNew` of row `p`. The stacked matrix, the stacked bias and
  the transposed output matrix are never opened: they enter only through the names `Wx`, `Wh`, `B`, `Wy`, `Bo`
  below. The one piece of algebra is that the contraction over the 256 joined columns is the contraction of the input
  with the first 128 rows of the matrix plus the contraction of the hidden state with the last 128
  (`Cert.LstmRow.sum_halves`), the joined row being the input on columns `k < 128` and the hidden state on columns
  `128 + k`.
-/
import proofs.«121577_j57844619543162_2_alg».proof.Proof.Gen.ReferenceIdeal.Read
import proofs.«121577_j57844619543162_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

variable (x0 x1 x2 : (⟨S131072x128, .f32⟩ : BufTy).Contents (Elt Ideal)) (x3 x5 x7 x9 : (⟨S128x256, .f32⟩ : BufTy).Contents (Elt Ideal)) (x4 x6 x8 x10 : (⟨S128, .f32⟩ : BufTy).Contents (Elt Ideal)) (x11 : (⟨S128x128, .f32⟩ : BufTy).Contents (Elt Ideal)) (x12 : (⟨S128, .f32⟩ : BufTy).Contents (Elt Ideal))

/-- The stacked gate matrix, rows 0–127: the rows the input `x` meets. -/
def Wx : Fin 128 → Fin 512 → EReal := fun k n => val_main_v3 (F := Ideal) x3 x5 x7 x9 (ix2 (⟨k.val, by omega⟩ : Fin 256) n)
/-- The stacked gate matrix, rows 128–255: the rows the previous hidden state meets. -/
def Wh : Fin 128 → Fin 512 → EReal := fun k n => val_main_v3 (F := Ideal) x3 x5 x7 x9 (ix2 (⟨128 + k.val, by omega⟩ : Fin 256) n)
/-- The stacked gate bias, one entry per gate column. -/
def B : Fin 512 → EReal := fun n => val_main_v2 (F := Ideal) x4 x6 x8 x10 (ix1 n)
/-- The transposed output matrix. -/
def Wy : Fin 128 → Fin 128 → EReal := fun k o => val_main_v36 (F := Ideal) x11 (ix2 k o)
/-- The output bias. -/
def Bo : Fin 128 → EReal := fun o => x12 (ix1 o)

/-! ## The joined row `[x, h]`: column `k < 128` is `x`'s column `k`, column `128 + k` is `h`'s column `k` -/

theorem cat_left (p : Fin 131072) (k : Fin 128) :
    val_main_v0 (F := Ideal) x0 x1 (ix2 p (⟨k.val, by omega⟩ : Fin 256)) = x0 (ix2 p k) := by
  unfold val_main_v0
  exact concatenate_pair_apply_left (t := S131072x256) (s₁ := S131072x128) (s₂ := S131072x128) 1 x0 x1
    concatenates_S131072x128_S131072x128_S131072x256_d1 _ rfl (ix2 p k)
    (fun b => by match b with | ⟨0, _⟩ => rfl | ⟨1, _⟩ => rfl)

theorem cat_right (p : Fin 131072) (k : Fin 128) :
    val_main_v0 (F := Ideal) x0 x1 (ix2 p (⟨128 + k.val, by omega⟩ : Fin 256)) = x1 (ix2 p k) := by
  unfold val_main_v0
  exact concatenate_pair_apply_right (t := S131072x256) (s₁ := S131072x128) (s₂ := S131072x128) 1 x0 x1
    concatenates_S131072x128_S131072x128_S131072x256_d1 _ rfl rfl (ix2 p k)
    (fun b hb => by match b with | ⟨0, _⟩ => rfl | ⟨1, _⟩ => exact absurd rfl hb)
    (by show k.val + 128 = 128 + k.val; omega)

/-! ## The contraction over the 256 joined columns, and the bias, at row `p` and gate column `n` -/

/-- The product `[x, h] · W` at `(p, n)`: the sum over the joined columns, the index maps written by coordinates. -/
theorem dot_apply (p : Fin 131072) (n : Fin 512) :
    val_main_v4 (F := Ideal) x0 x1 x3 x5 x7 x9 (ix2 p n)
      = ∑ k : Fin 256, val_main_v0 (F := Ideal) x0 x1 (ix2 p k) * val_main_v3 (F := Ideal) x3 x5 x7 x9 (ix2 k n) := by
  rw [val_main_v4_apply]
  refine Finset.sum_congr rfl fun k _ => ?_
  have el : lidx_main_v4 (ix2 p n) k = ix2 p k := funext fun a => by
    match a with | ⟨0, _⟩ => rfl | ⟨1, _⟩ => rfl
  have er : ridx_main_v4 (ix2 p n) k = ix2 k n := funext fun a => by
    match a with | ⟨0, _⟩ => rfl | ⟨1, _⟩ => rfl
  rw [el, er]

/-- The bias broadcast over the rows, at `(p, n)`, is the bias at `n`. -/
theorem bias_apply (p : Fin 131072) (n : Fin 512) :
    val_main_v6 (F := Ideal) x4 x6 x8 x10 (ix2 p n) = B x4 x6 x8 x10 n := by
  rw [val_main_v6_apply, val_main_v5_apply]
  unfold B
  refine congrArg _ (funext fun a => ?_)
  match a with | ⟨0, _⟩ => rfl

/-- The shared affine map of the four gates at row `p`, column `n`: the contraction over 256 joined columns splits
    into the contraction of `x` with the first 128 rows of the matrix and of `h` with the last 128. -/
theorem gate_apply (p : Fin 131072) (n : Fin 512) :
    val_main_v7 (F := Ideal) x0 x1 x3 x4 x5 x6 x7 x8 x9 x10 (ix2 p n)
      = Cert.LstmRow.gate (fun k => x0 (ix2 p k)) (fun k => x1 (ix2 p k)) (Wx x3 x5 x7 x9) (Wh x3 x5 x7 x9) (B x4 x6 x8 x10) n := by
  rw [val_main_v7_apply, dot_apply, bias_apply, Cert.LstmRow.sum_halves]
  simp only [cat_left, cat_right]
  rfl

/-! ## The four column slices of the affine map: input, forget, output gate and candidate -/

/-- Columns 0–127: the input gate's pre-activation. -/
theorem slice_i_apply (p : Fin 131072) (q : Fin 128) :
    val_main_v8 (F := Ideal) x0 x1 x3 x4 x5 x6 x7 x8 x9 x10 (ix2 p q)
      = Cert.LstmRow.gate (fun k => x0 (ix2 p k)) (fun k => x1 (ix2 p k)) (Wx x3 x5 x7 x9) (Wh x3 x5 x7 x9) (B x4 x6 x8 x10) (⟨q.val, by omega⟩ : Fin 512) := by
  rw [val_main_v8_apply, ← gate_apply]
  refine congrArg _ (funext fun a => ?_)
  match a with | ⟨0, _⟩ => rfl | ⟨1, _⟩ => rfl

/-- Columns 128–255: the forget gate's pre-activation. -/
theorem slice_f_apply (p : Fin 131072) (q : Fin 128) :
    val_main_v9 (F := Ideal) x0 x1 x3 x4 x5 x6 x7 x8 x9 x10 (ix2 p q)
      = Cert.LstmRow.gate (fun k => x0 (ix2 p k)) (fun k => x1 (ix2 p k)) (Wx x3 x5 x7 x9) (Wh x3 x5 x7 x9) (B x4 x6 x8 x10) (⟨128 + q.val, by omega⟩ : Fin 512) := by
  rw [val_main_v9_apply, ← gate_apply]
  refine congrArg _ (funext fun a => ?_)
  match a with | ⟨0, _⟩ => rfl | ⟨1, _⟩ => rfl

/-- Columns 256–383: the output gate's pre-activation. -/
theorem slice_o_apply (p : Fin 131072) (q : Fin 128) :
    val_main_v10 (F := Ideal) x0 x1 x3 x4 x5 x6 x7 x8 x9 x10 (ix2 p q)
      = Cert.LstmRow.gate (fun k => x0 (ix2 p k)) (fun k => x1 (ix2 p k)) (Wx x3 x5 x7 x9) (Wh x3 x5 x7 x9) (B x4 x6 x8 x10) (⟨256 + q.val, by omega⟩ : Fin 512) := by
  rw [val_main_v10_apply, ← gate_apply]
  refine congrArg _ (funext fun a => ?_)
  match a with | ⟨0, _⟩ => rfl | ⟨1, _⟩ => rfl

/-- Columns 384–511: the candidate's pre-activation. -/
theorem slice_g_apply (p : Fin 131072) (q : Fin 128) :
    val_main_v11 (F := Ideal) x0 x1 x3 x4 x5 x6 x7 x8 x9 x10 (ix2 p q)
      = Cert.LstmRow.gate (fun k => x0 (ix2 p k)) (fun k => x1 (ix2 p k)) (Wx x3 x5 x7 x9) (Wh x3 x5 x7 x9) (B x4 x6 x8 x10) (⟨384 + q.val, by omega⟩ : Fin 512) := by
  rw [val_main_v11_apply, ← gate_apply]
  refine congrArg _ (funext fun a => ?_)
  match a with | ⟨0, _⟩ => rfl | ⟨1, _⟩ => rfl

/-! ## The logistic function as the host prints it: `1 / (1 + exp (−x))`, the numeral one written as its word -/

/-- The quotient of one by one plus the exponential of the negation is the logistic function. -/
theorem logistic_word (x : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) x)))
      = Ideal.logistic x := by
  simp only [Ideal.hostDivf_def, Ideal.addf_def, Ideal.ofBits_def, Ideal.hostUnary_exp_def, Ideal.hostNegf_def,
    Ideal.negf_def, Cert.LstmRow.ofBits_one, Ideal.logistic]

/-- The input gate. -/
theorem gate_i_apply (p : Fin 131072) (q : Fin 128) :
    val_main_v17 (F := Ideal) x0 x1 x3 x4 x5 x6 x7 x8 x9 x10 (ix2 p q) = Ideal.logistic (Cert.LstmRow.gate (fun k => x0 (ix2 p k)) (fun k => x1 (ix2 p k)) (Wx x3 x5 x7 x9) (Wh x3 x5 x7 x9) (B x4 x6 x8 x10) (⟨q.val, by omega⟩ : Fin 512)) := by
  rw [val_main_v17_apply, val_main_v16_apply, val_main_cst_0_apply, val_main_v15_apply, val_main_v14_apply,
    val_main_cst_apply, val_main_v13_apply, val_main_v12_apply, slice_i_apply]
  exact logistic_word _

/-- The forget gate. -/
theorem gate_f_apply (p : Fin 131072) (q : Fin 128) :
    val_main_v23 (F := Ideal) x0 x1 x3 x4 x5 x6 x7 x8 x9 x10 (ix2 p q) = Ideal.logistic (Cert.LstmRow.gate (fun k => x0 (ix2 p k)) (fun k => x1 (ix2 p k)) (Wx x3 x5 x7 x9) (Wh x3 x5 x7 x9) (B x4 x6 x8 x10) (⟨128 + q.val, by omega⟩ : Fin 512)) := by
  rw [val_main_v23_apply, val_main_v22_apply, val_main_cst_2_apply, val_main_v21_apply, val_main_v20_apply,
    val_main_cst_1_apply, val_main_v19_apply, val_main_v18_apply, slice_f_apply]
  exact logistic_word _

/-- The output gate. -/
theorem gate_o_apply (p : Fin 131072) (q : Fin 128) :
    val_main_v29 (F := Ideal) x0 x1 x3 x4 x5 x6 x7 x8 x9 x10 (ix2 p q) = Ideal.logistic (Cert.LstmRow.gate (fun k => x0 (ix2 p k)) (fun k => x1 (ix2 p k)) (Wx x3 x5 x7 x9) (Wh x3 x5 x7 x9) (B x4 x6 x8 x10) (⟨256 + q.val, by omega⟩ : Fin 512)) := by
  rw [val_main_v29_apply, val_main_v28_apply, val_main_cst_4_apply, val_main_v27_apply, val_main_v26_apply,
    val_main_cst_3_apply, val_main_v25_apply, val_main_v24_apply, slice_o_apply]
  exact logistic_word _

/-- The candidate. -/
theorem cand_apply (p : Fin 131072) (q : Fin 128) :
    val_main_v30 (F := Ideal) x0 x1 x3 x4 x5 x6 x7 x8 x9 x10 (ix2 p q) = Ideal.tanh (Cert.LstmRow.gate (fun k => x0 (ix2 p k)) (fun k => x1 (ix2 p k)) (Wx x3 x5 x7 x9) (Wh x3 x5 x7 x9) (B x4 x6 x8 x10) (⟨384 + q.val, by omega⟩ : Fin 512)) := by
  rw [val_main_v30_apply, slice_g_apply]
  rfl

/-! ## The three results, row by row -/

/-- The new cell state at row `p`, column `q`. -/
theorem cell_apply (p : Fin 131072) (q : Fin 128) :
    val_main_v33 (F := Ideal) x0 x1 x2 x3 x4 x5 x6 x7 x8 x9 x10 (ix2 p q)
      = Cert.LstmRow.cellNew (fun k => x0 (ix2 p k)) (fun k => x1 (ix2 p k)) (fun k => x2 (ix2 p k)) (Wx x3 x5 x7 x9) (Wh x3 x5 x7 x9) (B x4 x6 x8 x10) q := by
  rw [val_main_v33_apply, val_main_v31_apply, val_main_v32_apply, gate_f_apply, gate_i_apply, cand_apply]
  rfl

/-- The new hidden state at row `p`, column `q`. -/
theorem hid_apply (p : Fin 131072) (q : Fin 128) :
    val_main_v35 (F := Ideal) x0 x1 x2 x3 x4 x5 x6 x7 x8 x9 x10 (ix2 p q)
      = Cert.LstmRow.hidNew (fun k => x0 (ix2 p k)) (fun k => x1 (ix2 p k)) (fun k => x2 (ix2 p k)) (Wx x3 x5 x7 x9) (Wh x3 x5 x7 x9) (B x4 x6 x8 x10) q := by
  rw [val_main_v35_apply, val_main_v34_apply, gate_o_apply, cell_apply]
  rfl

/-- The output at row `p`, column `o`: the new hidden row through the output layer. -/
theorem out_apply (p : Fin 131072) (o : Fin 128) :
    val_main_v40 (F := Ideal) x0 x1 x2 x3 x4 x5 x6 x7 x8 x9 x10 x11 x12 (ix2 p o)
      = Cert.LstmRow.outNew (fun k => x0 (ix2 p k)) (fun k => x1 (ix2 p k)) (fun k => x2 (ix2 p k)) (Wx x3 x5 x7 x9) (Wh x3 x5 x7 x9) (B x4 x6 x8 x10) (Wy x11) (Bo x12) o := by
  rw [val_main_v40_apply, val_main_v37_apply, val_main_v39_apply, val_main_v38_apply]
  have eb : idx_main_v38 (idx_main_v39 (ix2 p o)) = ix1 o := funext fun a => by
    match a with | ⟨0, _⟩ => rfl
  rw [eb]
  unfold Cert.LstmRow.outNew
  refine congrArg₂ _ (Finset.sum_congr rfl fun k _ => ?_) rfl
  have el : lidx_main_v37 (ix2 p o) k = ix2 p k := funext fun a => by
    match a with | ⟨0, _⟩ => rfl | ⟨1, _⟩ => rfl
  have er : ridx_main_v37 (ix2 p o) k = ix2 k o := funext fun a => by
    match a with | ⟨0, _⟩ => rfl | ⟨1, _⟩ => rfl
  rw [el, er, hid_apply]
  rfl

end Cert.ReferenceIdeal.RefValue

end
-- ==== Proof.Bridge.lean ====
/-
  The reference's three results are the kernel's three whole-array functions.

  Entry `(p, q)` of each reference result is the row specification of row `p` of the three batch arrays, with the
  weights read off the stacked, transposed gate matrix, the stacked bias, the transposed output matrix and the output
  bias. The kernel's host lines build the same stacked, transposed gate matrix, the same stacked bias and the same
  transposed output matrix from the same arguments, so the weights are the same functions and the arrays agree
  entry by entry.
-/
import proofs.«121577_j57844619543162_2_alg».proof.Proof.CellArrays
import proofs.«121577_j57844619543162_2_alg».proof.Proof.RefRows

noncomputable section

namespace Cert.Bridge

open Idealize.ShloMosaic Idealize.ShloMosaic.TcCoe Idealize.SL.Sem Idealize.ShloMosaic.ValueIdx
open Cert.KernelIdeal.CellValue

section Arrays
variable (x0 x1 x2 : FVec Ideal Cert.KernelIdeal.S131072x128 .f32) (x3 x5 x7 x9 : FVec Ideal Cert.KernelIdeal.S128x256 .f32)
  (x4 x6 x8 x10 : FVec Ideal Cert.KernelIdeal.S128 .f32) (x11 : FVec Ideal Cert.KernelIdeal.S128x128 .f32)
  (x12 : FVec Ideal Cert.KernelIdeal.S128 .f32)

/-- The reference's new cell state, as one whole-array function. -/
theorem ref_cell : Cert.ReferenceIdeal.Read.val_main_v33 (F := Ideal) x0 x1 x2 x3 x4 x5 x6 x7 x8 x9 x10
    = cellArrOf x0 x1 x2 (Cert.ReferenceIdeal.RefValue.Wx x3 x5 x7 x9) (Cert.ReferenceIdeal.RefValue.Wh x3 x5 x7 x9)
        (Cert.ReferenceIdeal.RefValue.B x4 x6 x8 x10) := by
  funext j
  obtain ⟨p, q, rfl⟩ : ∃ (p : Fin 131072) (q : Fin 128), j = ix2 p q := ⟨j 0, j 1, eq_ix2 j⟩
  rw [Cert.ReferenceIdeal.RefValue.cell_apply]
  rfl

/-- The reference's new hidden state. -/
theorem ref_hid : Cert.ReferenceIdeal.Read.val_main_v35 (F := Ideal) x0 x1 x2 x3 x4 x5 x6 x7 x8 x9 x10
    = hidArrOf x0 x1 x2 (Cert.ReferenceIdeal.RefValue.Wx x3 x5 x7 x9) (Cert.ReferenceIdeal.RefValue.Wh x3 x5 x7 x9)
        (Cert.ReferenceIdeal.RefValue.B x4 x6 x8 x10) := by
  funext j
  obtain ⟨p, q, rfl⟩ : ∃ (p : Fin 131072) (q : Fin 128), j = ix2 p q := ⟨j 0, j 1, eq_ix2 j⟩
  rw [Cert.ReferenceIdeal.RefValue.hid_apply]
  rfl

/-- The reference's output. -/
theorem ref_out : Cert.ReferenceIdeal.Read.val_main_v40 (F := Ideal) x0 x1 x2 x3 x4 x5 x6 x7 x8 x9 x10 x11 x12
    = outArrOf x0 x1 x2 (Cert.ReferenceIdeal.RefValue.Wx x3 x5 x7 x9) (Cert.ReferenceIdeal.RefValue.Wh x3 x5 x7 x9)
        (Cert.ReferenceIdeal.RefValue.B x4 x6 x8 x10) (Cert.ReferenceIdeal.RefValue.Wy x11) (Cert.ReferenceIdeal.RefValue.Bo x12) := by
  funext j
  obtain ⟨p, q, rfl⟩ : ∃ (p : Fin 131072) (q : Fin 128), j = ix2 p q := ⟨j 0, j 1, eq_ix2 j⟩
  rw [Cert.ReferenceIdeal.RefValue.out_apply]
  rfl

end Arrays

section Weights
open Cert.KernelIdeal
variable (m : (ℓ : Loc nD τ sig) → Buf (Elt Ideal) ℓ) (c : Dev nD)

/-- Both programs stack and transpose the same four gate matrices. -/
theorem stacked_agree : Cert.ReferenceIdeal.Read.val_main_v3 (F := Ideal) (m ((c : Thread nD τ).loc main_arg3)) (m ((c : Thread nD τ).loc main_arg5))
      (m ((c : Thread nD τ).loc main_arg7)) (m ((c : Thread nD τ).loc main_arg9)) = stackedT m c := rfl

/-- Both stack the same four gate biases. -/
theorem bias_agree : Cert.ReferenceIdeal.Read.val_main_v2 (F := Ideal) (m ((c : Thread nD τ).loc main_arg4)) (m ((c : Thread nD τ).loc main_arg6))
      (m ((c : Thread nD τ).loc main_arg8)) (m ((c : Thread nD τ).loc main_arg10)) = stackedBias m c := rfl

/-- Both transpose the same output matrix. -/
theorem outT_agree : Cert.ReferenceIdeal.Read.val_main_v36 (F := Ideal) (m ((c : Thread nD τ).loc main_arg11)) = outT m c := rfl

theorem Wx_agree : Cert.ReferenceIdeal.RefValue.Wx (m ((c : Thread nD τ).loc main_arg3)) (m ((c : Thread nD τ).loc main_arg5))
      (m ((c : Thread nD τ).loc main_arg7)) (m ((c : Thread nD τ).loc main_arg9)) = Wx m c := by
  unfold Cert.ReferenceIdeal.RefValue.Wx Wx; rw [stacked_agree]
theorem Wh_agree : Cert.ReferenceIdeal.RefValue.Wh (m ((c : Thread nD τ).loc main_arg3)) (m ((c : Thread nD τ).loc main_arg5))
      (m ((c : Thread nD τ).loc main_arg7)) (m ((c : Thread nD τ).loc main_arg9)) = Wh m c := by
  unfold Cert.ReferenceIdeal.RefValue.Wh Wh; rw [stacked_agree]
theorem B_agree : Cert.ReferenceIdeal.RefValue.B (m ((c : Thread nD τ).loc main_arg4)) (m ((c : Thread nD τ).loc main_arg6))
      (m ((c : Thread nD τ).loc main_arg8)) (m ((c : Thread nD τ).loc main_arg10)) = Bg m c := by
  unfold Cert.ReferenceIdeal.RefValue.B Bg; rw [bias_agree]
theorem Wy_agree : Cert.ReferenceIdeal.RefValue.Wy (m ((c : Thread nD τ).loc main_arg11)) = Wy m c := by
  unfold Cert.ReferenceIdeal.RefValue.Wy Wy; rw [outT_agree]
theorem Bo_agree : Cert.ReferenceIdeal.RefValue.Bo (m ((c : Thread nD τ).loc main_arg12)) = Bo m c := rfl

/-- The reference's results on the kernel's launch contents are the kernel's result arrays. -/
theorem cell_agree : Cert.ReferenceIdeal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    = cellArr m c := by
  rw [ref_cell, Wx_agree, Wh_agree, B_agree, cellArr_launch]
theorem hid_agree : Cert.ReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
    = hidArr m c := by
  rw [ref_hid, Wx_agree, Wh_agree, B_agree, hidArr_launch]
theorem out_agree : Cert.ReferenceIdeal.Read.val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
    = outArr m c := by
  rw [ref_out, Wx_agree, Wh_agree, B_agree, Wy_agree, Bo_agree, outArr_launch]

end Weights

end Cert.Bridge

end
-- ==== Proof.lean ====
/-
  One step of an LSTM cell as a pipelined kernel over 64 blocks of 2048 batch rows, against its array-level
  reference: the five claims.

  Frames. The kernel's @main is eleven host lines that only lay the weights out (stack the four gate matrices and
  transpose, cut the input half and the hidden half, stack the biases, transpose the output matrix) followed by one
  region whose body loads whole blocks, computes, and stores whole blocks; its frame is the general frame
  theorem for pipelined regions over plain proof data, at the word-level instance and at the ideal one alike. The reference is a straight line
  of host operations; its frame is its run with the results dropped.

  Values, at the ideal instance. Narrowing to bf16 is the identity, a matrix product from a zero accumulator is the
  sum over the contracted index, and the kernel's logistic function is by definition the reference's
  `1 / (1 + exp (−x))`. So row `p` of each result is, on both sides, the same function of row `p` of the input, the
  hidden state and the cell state and of the stacked weights: on the kernel's side because the body is row-wise and
  block `t` holds rows `2048 t … 2048 t + 2047`; on the reference's side after splitting its contraction over the 256
  joined columns `[x, h]` into the contraction of `x` with the first 128 rows of the stacked matrix plus that of `h`
  with the last 128 — the two products the kernel computes separately. That splitting is associativity and
  commutativity of addition only, so the precondition (finite inputs) is never opened.

  The ideal pass rewrote nothing, so the preservation claim is trivial.
-/
import proofs.«121577_j57844619543162_2_alg».proof.Defs
import proofs.«121577_j57844619543162_2_alg».proof.Proof.Gen.Kernel
import proofs.«121577_j57844619543162_2_alg».proof.Proof.Gen.KernelIdeal
import proofs.«121577_j57844619543162_2_alg».proof.Proof.Gen.ReferenceIdeal
import proofs.«121577_j57844619543162_2_alg».proof.Proof.Gen.Pre_finite_inputs
import proofs.«121577_j57844619543162_2_alg».proof.Proof.Gen.ReferenceIdeal.Run
import proofs.«121577_j57844619543162_2_alg».proof.Proof.Gen.ReferenceIdeal.Read
import proofs.«121577_j57844619543162_2_alg».proof.Proof.FrameKernel
import proofs.«121577_j57844619543162_2_alg».proof.Proof.FrameKernelIdeal
import proofs.«121577_j57844619543162_2_alg».proof.Proof.Bridge

noncomputable section

namespace Cert.Proof

open Idealize.ShloMosaic Idealize.ShloMosaic.TcCoe Idealize.SL.Sem

/-- The kernel as printed runs and leaves its arguments unchanged. -/
theorem frame_k : Cert.frame_Kernel := fun m ρ _ => Cert.Kernel.Cell.frame m ρ

/-- So does its idealization. -/
theorem frame_ki : Cert.frame_KernelIdeal := fun m ρ _ => Cert.KernelIdeal.Cell.frame m ρ

/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

/-- From memories that agree on the arguments both programs end with the output, the new hidden state and the new
    cell state at the same whole-array functions of the arguments. -/
theorem algebraic : Cert.algebraic_KernelIdeal_ReferenceIdeal := by
  intro m ρ m' ρ' _ hagree
  refine ⟨fun c => Cert.KernelIdeal.CellValue.outArr m c, fun c => Cert.KernelIdeal.CellValue.hidArr m c,
    fun c => Cert.KernelIdeal.CellValue.cellArr m c, Cert.KernelIdeal.CellValue.run m ρ, ?_⟩
  refine (θ_run Cert.ReferenceIdeal.defs _ _).mono (fun r h c => ?_) (Cert.ReferenceIdeal.Value.run (F := Ideal) m' ρ')
  obtain ⟨a0, a1, a2, a3, a4, a5, a6, a7, a8, a9, a10, a11, a12⟩ := hagree c
  obtain ⟨r40, r35, r33, rest⟩ := h c
  refine ⟨r40.trans ?_, r35.trans ?_, r33.trans ?_, rest⟩
  · rw [Cert.ReferenceIdeal.Read.val_main_v40_eq, a0, a1, a2, a3, a4, a5, a6, a7, a8, a9, a10, a11, a12]
    exact Cert.Bridge.out_agree m c
  · rw [Cert.ReferenceIdeal.Read.val_main_v35_eq, a0, a1, a2, a3, a4, a5, a6, a7, a8, a9, a10]
    exact Cert.Bridge.hid_agree m c
  · refine (Cert.ReferenceIdeal.Read.val_main_v33_eq _ _ _ _ _ _ _ _ _ _ _).trans ?_
    rw [a0, a1, a2, a3, a4, a5, a6, a7, a8, a9, a10]
    exact Cert.Bridge.cell_agree m c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
